-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x2000000 : Shape := ⟨2, ![2, 2000000]⟩
abbrev S3x1x32 : Shape := ⟨3, ![3, 1, 32]⟩
abbrev S32 : Shape := ⟨1, ![32]⟩
abbrev S3x32x32 : Shape := ⟨3, ![3, 32, 32]⟩
abbrev S32x1 : Shape := ⟨2, ![32, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S3x1x32 : S_.BroadcastsInDim S3x1x32 (![] : Fin 0 → Fin S3x1x32.rank)
  reducesTo_S3x1x32_S_d0_1_2 : S3x1x32.ReducesTo [0, 1, 2] S_
  bcast_S_S32 : S_.BroadcastsInDim S32 (![] : Fin 0 → Fin S32.rank)
  reducesTo_S32_S_d0 : S32.ReducesTo [0] S_
  bcast_S_S3x32x32 : S_.BroadcastsInDim S3x32x32 (![] : Fin 0 → Fin S3x32x32.rank)
  reducesTo_S3x32x32_S_d0_1_2 : S3x32x32.ReducesTo [0, 1, 2] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S3x32x32 1) : IVec S_ 1 :=
  let main_c_5 : IVec S_ 1 := constantI S_ 1 1#1
  let main_v17 : IVec S_ 1 := (fun x v => Host.reduce IntOp.andi x v reducesTo_S3x32x32_S_d0_1_2 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x1 .f32) (main_arg1 : IVec S2x2000000 32) (main_arg2 : FVec F S3x1x32 .f32) (main_arg3 : FVec F S32 .f32) (main_arg4 : FVec F S3x32x32 .f32) (main_arg5 : FVec F S32 .f32) (main_arg6 : FVec F S32x1 .f32) (main_arg7 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S3x1x32 .f32 := Host.absf main_arg2
  let main_cst_0 : FVec F S_ .f32 := constant S_ .f32 0x7F800000#32
  let main_v5 : FVec F S3x1x32 .f32 := broadcastInDim S3x1x32 ![] bcast_S_S3x1x32 main_cst_0
  let main_v6 : IVec S3x1x32 1 := cmpf .olt main_v4 main_v5
  let main_c_1 : IVec S_ 1 := constantI S_ 1 1#1
  let main_v7 : IVec S_ 1 := (fun x v => Host.reduce IntOp.andi x v reducesTo_S3x1x32_S_d0_1_2 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S3x32x32 .f32 := Host.absf main_arg4
  let main_cst_4 : FVec F S_ .f32 := constant S_ .f32 0x7F800000#32
  let main_v15 : FVec F S3x32x32 .f32 := broadcastInDim S3x32x32 ![] bcast_S_S3x32x32 main_cst_4
  let main_v16 : IVec S3x32x32 1 := cmpf .olt main_v14 main_v15
  fn_part1 (F := F) main_arg5 main_arg6 main_arg7 main_v13 main_v16
-- ==== Kernel.lean ====
abbrev S100000x1 : Shape := ⟨2, ![100000, 1]⟩
abbrev S2x2000000 : Shape := ⟨2, ![2, 2000000]⟩
abbrev S3x1x32 : Shape := ⟨3, ![3, 1, 32]⟩
abbrev S32 : Shape := ⟨1, ![32]⟩
abbrev S3x32x32 : Shape := ⟨3, ![3, 32, 32]⟩
abbrev S32x1 : Shape := ⟨2, ![32, 1]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S100000 : Shape := ⟨1, ![100000]⟩
abbrev S2000000x1 : Shape := ⟨2, ![2000000, 1]⟩
abbrev S100000x32 : Shape := ⟨2, ![100000, 32]⟩
abbrev S5000x1 : Shape := ⟨2, ![5000, 1]⟩
abbrev S5000x32 : Shape := ⟨2, ![5000, 32]⟩
abbrev S1x1x32 : Shape := ⟨3, ![1, 1, 32]⟩
abbrev S1x32 : Shape := ⟨2, ![1, 32]⟩
abbrev S2000000x32 : Shape := ⟨2, ![2000000, 32]⟩
abbrev S1x32x32 : Shape := ⟨3, ![1, 32, 32]⟩
abbrev S32x32 : Shape := ⟨2, ![32, 32]⟩
abbrev S1x1 : Shape := ⟨2, ![1, 1]⟩

abbrev nBuf : Space → Nat
  | .hbm => 114
  | .vmem => 22
  | .smem => 0
  | _ => 0

abbrev bufTy : (tb : Table) → Fin (tcTables nBuf tb) → BufTy
  | .hbm, ⟨0, _⟩ => ⟨S100000x1, .f32⟩
  | .hbm, ⟨1, _⟩ => ⟨S2x2000000, .i32⟩
  | .hbm, ⟨2, _⟩ => ⟨S3x1x32, .f32⟩
  | .hbm, ⟨3, _⟩ => ⟨S32, .f32⟩
  | .hbm, ⟨4, _⟩ => ⟨S3x32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x2000000, .i32⟩
  | .hbm, ⟨9, _⟩ => ⟨S2000000, .i32⟩
  | .hbm, ⟨10, _⟩ => ⟨S1x2000000, .i32⟩
  | .hbm, ⟨11, _⟩ => ⟨S2000000, .i32⟩
  | .hbm, ⟨12, _⟩ => ⟨S_, .f32⟩
  | .hbm, ⟨13, _⟩ => ⟨S2000000, .f32⟩
  | .hbm, ⟨14, _⟩ => ⟨S_, .f32⟩
  | .hbm, ⟨15, _⟩ => ⟨S100000, .f32⟩
  | .hbm, ⟨16, _⟩ => ⟨S2000000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S2000000, .i32⟩
  | .hbm, ⟨31, _⟩ => ⟨S2000000, .i1⟩
  | .hbm, ⟨32, _⟩ => ⟨S_, .i32⟩
  | .hbm, ⟨33, _⟩ => ⟨S2000000, .i32⟩
  | .hbm, ⟨34, _⟩ => ⟨S2000000, .i32⟩
  | .hbm, ⟨35, _⟩ => ⟨S2000000, .i32⟩
  | .hbm, ⟨36, _⟩ => ⟨S2000000x1, .i32⟩
  | .hbm, ⟨37, _⟩ => ⟨S2000000, .f32⟩
  | .hbm, ⟨38, _⟩ => ⟨S2000000, .f32⟩
  | .hbm, ⟨39, _⟩ => ⟨S2000000, .f32⟩
  | .hbm, ⟨40, _⟩ => ⟨S_, .i32⟩
  | .hbm, ⟨41, _⟩ => ⟨S2000000, .i32⟩
  | .hbm, ⟨42, _⟩ => ⟨S2000000, .i1⟩
  | .hbm, ⟨43, _⟩ => ⟨S_, .i32⟩
  | .hbm, ⟨44, _⟩ => ⟨S2000000, .i32⟩
  | .hbm, ⟨45, _⟩ => ⟨S2000000, .i32⟩
  | .hbm, ⟨46, _⟩ => ⟨S2000000, .i32⟩
  | .hbm, ⟨47, _⟩ => ⟨S2000000x1, .i32⟩
  | .hbm, ⟨48, _⟩ => ⟨S2000000, .f32⟩
  | .hbm, ⟨49, _⟩ => ⟨S2000000, .f32⟩
  | .hbm, ⟨50, _⟩ => ⟨S2000000x1, .f32⟩
  | .hbm, ⟨51, _⟩ => ⟨S_, .i32⟩
  | .hbm, ⟨52, _⟩ => ⟨S2000000, .i32⟩
  | .hbm, ⟨53, _⟩ => ⟨S2000000, .i1⟩
  | .hbm, ⟨54, _⟩ => ⟨S_, .i32⟩
  | .hbm, ⟨55, _⟩ => ⟨S2000000, .i32⟩
  | .hbm, ⟨56, _⟩ => ⟨S2000000, .i32⟩
  | .hbm, ⟨57, _⟩ => ⟨S2000000, .i32⟩
  | .hbm, ⟨58, _⟩ => ⟨S2000000x1, .i32⟩
  | .hbm, ⟨59, _⟩ => ⟨S2000000x1, .f32⟩
  | .hbm, ⟨60, _⟩ => ⟨S2000000x1, .f32⟩
  | .hbm, ⟨61, _⟩ => ⟨S_, .f32⟩
  | .hbm, ⟨62, _⟩ => ⟨S100000x1, .f32⟩
  | .hbm, ⟨63, _⟩ => ⟨S2000000x1, .i32⟩
  | .hbm, ⟨64, _⟩ => ⟨S100000x1, .f32⟩
  | .hbm, ⟨65, _⟩ => ⟨S2000000x1, .f32⟩
  | .hbm, ⟨66, _⟩ => ⟨S_, .i32⟩
  | .hbm, ⟨67, _⟩ => ⟨S2000000, .i32⟩
  | .hbm, ⟨68, _⟩ => ⟨S2000000, .i1⟩
  | .hbm, ⟨69, _⟩ => ⟨S_, .i32⟩
  | .hbm, ⟨70, _⟩ => ⟨S2000000, .i32⟩
  | .hbm, ⟨71, _⟩ => ⟨S2000000, .i32⟩
  | .hbm, ⟨72, _⟩ => ⟨S2000000, .i32⟩
  | .hbm, ⟨73, _⟩ => ⟨S2000000x1, .i32⟩
  | .hbm, ⟨74, _⟩ => ⟨S2000000x1, .f32⟩
  | .hbm, ⟨75, _⟩ => ⟨S2000000x1, .f32⟩
  | .hbm, ⟨76, _⟩ => ⟨S_, .f32⟩
  | .hbm, ⟨77, _⟩ => ⟨S100000x1, .f32⟩
  | .hbm, ⟨78, _⟩ => ⟨S2000000x1, .i32⟩
  | .hbm, ⟨79, _⟩ => ⟨S100000x1, .f32⟩
  | .hbm, ⟨80, _⟩ => ⟨S100000x32, .f32⟩
  | .hbm, ⟨81, _⟩ => ⟨S2000000x1, .f32⟩
  | .hbm, ⟨82, _⟩ => ⟨S_, .i32⟩
  | .hbm, ⟨83, _⟩ => ⟨S2000000, .i32⟩
  | .hbm, ⟨84, _⟩ => ⟨S2000000, .i1⟩
  | .hbm, ⟨85, _⟩ => ⟨S_, .i32⟩
  | .hbm, ⟨86, _⟩ => ⟨S2000000, .i32⟩
  | .hbm, ⟨87, _⟩ => ⟨S2000000, .i32⟩
  | .hbm, ⟨88, _⟩ => ⟨S2000000, .i32⟩
  | .hbm, ⟨89, _⟩ => ⟨S2000000x1, .i32⟩
  | .hbm, ⟨90, _⟩ => ⟨S2000000x32, .f32⟩
  | .hbm, ⟨91, _⟩ => ⟨S2000000x32, .f32⟩
  | .hbm, ⟨92, _⟩ => ⟨S2000000x32, .f32⟩
  | .hbm, ⟨93, _⟩ => ⟨S_, .f32⟩
  | .hbm, ⟨94, _⟩ => ⟨S100000x32, .f32⟩
  | .hbm, ⟨95, _⟩ => ⟨S2000000x1, .i32⟩
  | .hbm, ⟨96, _⟩ => ⟨S100000x32, .f32⟩
  | .hbm, ⟨97, _⟩ => ⟨S2000000x1, .f32⟩
  | .hbm, ⟨98, _⟩ => ⟨S_, .i32⟩
  | .hbm, ⟨99, _⟩ => ⟨S2000000, .i32⟩
  | .hbm, ⟨100, _⟩ => ⟨S2000000, .i1⟩
  | .hbm, ⟨101, _⟩ => ⟨S_, .i32⟩
  | .hbm, ⟨102, _⟩ => ⟨S2000000, .i32⟩
  | .hbm, ⟨103, _⟩ => ⟨S2000000, .i32⟩
  | .hbm, ⟨104, _⟩ => ⟨S2000000, .i32⟩
  | .hbm, ⟨105, _⟩ => ⟨S2000000x1, .i32⟩
  | .hbm, ⟨106, _⟩ => ⟨S2000000x32, .f32⟩
  | .hbm, ⟨107, _⟩ => ⟨S2000000x32, .f32⟩
  | .hbm, ⟨108, _⟩ => ⟨S2000000x32, .f32⟩
  | .hbm, ⟨109, _⟩ => ⟨S_, .f32⟩
  | .hbm, ⟨110, _⟩ => ⟨S100000x32, .f32⟩
  | .hbm, ⟨111, _⟩ => ⟨S2000000x1, .i32⟩
  | .hbm, ⟨112, _⟩ => ⟨S100000x32, .f32⟩
  | .hbm, ⟨113, _⟩ => ⟨S100000x1, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S3x1x32, .f32⟩
  | .local _ .vmem, ⟨7, _⟩ => ⟨S32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S3x32x32, .f32⟩
  | .local _ .vmem, ⟨17, _⟩ => ⟨S32, .f32⟩
  | .local _ .vmem, ⟨18, _⟩ => ⟨S32x1, .f32⟩
  | .local _ .vmem, ⟨19, _⟩ => ⟨S1, .f32⟩
  | .local _ .vmem, ⟨20, _⟩ => ⟨S5000x1, .f32⟩
  | .local _ .vmem, ⟨21, _⟩ => ⟨S5000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_c_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_16 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  bcast_S_S100000x1 : S_.BroadcastsInDim S100000x1 (![] : Fin 0 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  bitsLt_bf16_f32 : FTy.bits .bf16 < FTy.bits .f32
  inb_S3x1x32_S1x1x32_0_0_0 : ∀ a, (![0, 0, 0] : Fin 3 → Nat) a + S1x1x32.size a ≤ S3x1x32.size a
  h_S1x1x32 : 0 < S1x1x32.numel
  shapeCasts_S1x1x32_S1x32 : S1x1x32.ShapeCasts S1x32
  inb_S3x1x32_S1x1x32_1_0_0 : ∀ a, (![1, 0, 0] : Fin 3 → Nat) a + S1x1x32.size a ≤ S3x1x32.size a
  inb_S3x1x32_S1x1x32_2_0_0 : ∀ a, (![2, 0, 0] : Fin 3 → Nat) a + S1x1x32.size a ≤ S3x1x32.size a
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S2000000x1_S2000000x32_0_1 : S2000000x1.BroadcastsInDim S2000000x32 (![0, 1] : Fin 2 → Fin S2000000x32.rank)
  bcast_S_S100000x32 : S_.BroadcastsInDim S100000x32 (![] : Fin 0 → Fin S100000x32.rank)
  shapeCasts_S5000x32_S5000x32 : S5000x32.ShapeCasts S5000x32
  inb_S3x32x32_S1x32x32_0_0_0 : ∀ a, (![0, 0, 0] : Fin 3 → Nat) a + S1x32x32.size a ≤ S3x32x32.size a
  h_S1x32x32 : 0 < S1x32x32.numel
  shapeCasts_S1x32x32_S32x32 : S1x32x32.ShapeCasts S32x32
  inb_S3x32x32_S1x32x32_1_0_0 : ∀ a, (![1, 0, 0] : Fin 3 → Nat) a + S1x32x32.size a ≤ S3x32x32.size a
  inb_S3x32x32_S1x32x32_2_0_0 : ∀ a, (![2, 0, 0] : Fin 3 → Nat) a + S1x32x32.size a ≤ S3x32x32.size a
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  scatter_S100000_S2000000x1_S2000000_n_0_0_1_wf : ScatterDims.WF S100000 S2000000x1 S2000000 [] [0] [0] 1
  gather_S100000_S2000000x1_S2000000_n_0_n_n_0_1_1_wf : GatherDims.WF S100000 S2000000x1 S2000000 [] [0] [] [0] [] 1 ![1]
  gather_S100000x1_S2000000x1_S2000000x1_1_0_n_n_0_1_11_wf : GatherDims.WF S100000x1 S2000000x1 S2000000x1 [1] [0] [] [0] [] 1 ![1, 1]
  scatter_S100000x1_S2000000x1_S2000000x1_1_0_0_1_wf : ScatterDims.WF S100000x1 S2000000x1 S2000000x1 [1] [0] [0] 1
  dot_S5000x1_S1x32_S5000x32_1_0_0_1_n_n_wf : DotDims.WF S5000x1 S1x32 S5000x32 [1] [0] [0] [1] [] []
  gather_S100000x32_S2000000x1_S2000000x32_1_0_n_n_0_1_132_wf : GatherDims.WF S100000x32 S2000000x1 S2000000x32 [1] [0] [] [0] [] 1 ![1, 32]
  scatter_S100000x32_S2000000x1_S2000000x32_1_0_0_1_wf : ScatterDims.WF S100000x32 S2000000x1 S2000000x32 [1] [0] [0] 1
  dot_S5000x32_S32x32_S5000x32_1_0_0_1_n_n_wf : DotDims.WF S5000x32 S32x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1x32.size a ≤ S3x1x32.size a
  hwx0_3 : ∀ i : grid0.Coords, EltTy.bits .f32 = 32 ∨ (Rect.block (s := S3x1x32) S3x1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x32x32.size a ≤ S3x32x32.size a
  hwx1_3 : ∀ i : grid1.Coords, EltTy.bits .f32 = 32 ∨ (Rect.block (s := S3x32x32) S3x32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x1.size a ≤ S32x1.size a
  hwx1_5 : ∀ i : grid1.Coords, EltTy.bits .f32 = 32 ∨ (Rect.block (s := S32x1) S32x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def gather_S100000x1_S2000000x1_S2000000x1_1_0_n_n_0_1_11 : GatherDims S100000x1 S2000000x1 S2000000x1 where
  offsetDims := [1]
  collapsedSliceDims := [0]
  operandBatchingDims := []
  startIndicesBatchingDims := []
  startIndexMap := [0]
  indexVectorDim := 1
  sliceSizes := ![1, 1]
  wf := gather_S100000x1_S2000000x1_S2000000x1_1_0_n_n_0_1_11_wf
def scatter_S100000x1_S2000000x1_S2000000x1_1_0_0_1 : ScatterDims S100000x1 S2000000x1 S2000000x1 where
  updateWindowDims := [1]
  insertedWindowDims := [0]
  scatterDimsToOperandDims := [0]
  indexVectorDim := 1
  wf := scatter_S100000x1_S2000000x1_S2000000x1_1_0_0_1_wf
def dot_S5000x1_S1x32_S5000x32_1_0_0_1_n_n : DotDims S5000x1 S1x32 S5000x32 where
  lhsContracting := [1]
  rhsContracting := [0]
  lhsNonContracting := [0]
  rhsNonContracting := [1]
  lhsBatch := []
  rhsBatch := []
  wf := dot_S5000x1_S1x32_S5000x32_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v55) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v55) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v68) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v81) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S3x32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S32x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v82) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x1 : Shape := ⟨2, ![100000, 1]⟩
abbrev S2x2000000 : Shape := ⟨2, ![2, 2000000]⟩
abbrev S3x1x32 : Shape := ⟨3, ![3, 1, 32]⟩
abbrev S32 : Shape := ⟨1, ![32]⟩
abbrev S3x32x32 : Shape := ⟨3, ![3, 32, 32]⟩
abbrev S32x1 : Shape := ⟨2, ![32, 1]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S100000 : Shape := ⟨1, ![100000]⟩
abbrev S2000000x1 : Shape := ⟨2, ![2000000, 1]⟩
abbrev S1x1x32 : Shape := ⟨3, ![1, 1, 32]⟩
abbrev S1x32 : Shape := ⟨2, ![1, 32]⟩
abbrev S100000x32 : Shape := ⟨2, ![100000, 32]⟩
abbrev S1x32x32 : Shape := ⟨3, ![1, 32, 32]⟩
abbrev S32x32 : Shape := ⟨2, ![32, 32]⟩
abbrev S2000000x32 : Shape := ⟨2, ![2000000, 32]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S100000x1, .f32⟩
  | 1 => ⟨S2x2000000, .i32⟩
  | 2 => ⟨S3x1x32, .f32⟩
  | 3 => ⟨S32, .f32⟩
  | 4 => ⟨S3x32x32, .f32⟩
  | 5 => ⟨S32, .f32⟩
  | 6 => ⟨S32x1, .f32⟩
  | 7 => ⟨S1, .f32⟩
  | 8 => ⟨S1x2000000, .i32⟩
  | 9 => ⟨S2000000, .i32⟩
  | 10 => ⟨S1x2000000, .i32⟩
  | 11 => ⟨S2000000, .i32⟩
  | 12 => ⟨S_, .f32⟩
  | 13 => ⟨S2000000, .f32⟩
  | 14 => ⟨S_, .f32⟩
  | 15 => ⟨S100000, .f32⟩
  | 16 => ⟨S2000000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S2000000, .i32⟩
  | 31 => ⟨S2000000, .i1⟩
  | 32 => ⟨S_, .i32⟩
  | 33 => ⟨S2000000, .i32⟩
  | 34 => ⟨S2000000, .i32⟩
  | 35 => ⟨S2000000, .i32⟩
  | 36 => ⟨S2000000x1, .i32⟩
  | 37 => ⟨S2000000, .f32⟩
  | 38 => ⟨S2000000, .f32⟩
  | 39 => ⟨S2000000, .f32⟩
  | 40 => ⟨S_, .i32⟩
  | 41 => ⟨S2000000, .i32⟩
  | 42 => ⟨S2000000, .i1⟩
  | 43 => ⟨S_, .i32⟩
  | 44 => ⟨S2000000, .i32⟩
  | 45 => ⟨S2000000, .i32⟩
  | 46 => ⟨S2000000, .i32⟩
  | 47 => ⟨S2000000x1, .i32⟩
  | 48 => ⟨S2000000, .f32⟩
  | 49 => ⟨S2000000, .f32⟩
  | 50 => ⟨S1x1x32, .f32⟩
  | 51 => ⟨S1x32, .f32⟩
  | 52 => ⟨S100000x32, .f32⟩
  | 53 => ⟨S2000000x1, .f32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S2000000x1, .f32⟩
  | 63 => ⟨S2000000x1, .f32⟩
  | 64 => ⟨S_, .f32⟩
  | 65 => ⟨S100000x1, .f32⟩
  | 66 => ⟨S2000000x1, .i32⟩
  | 67 => ⟨S100000x1, .f32⟩
  | 68 => ⟨S1x1x32, .f32⟩
  | 69 => ⟨S1x32, .f32⟩
  | 70 => ⟨S100000x32, .f32⟩
  | 71 => ⟨S100000x32, .f32⟩
  | 72 => ⟨S2000000x1, .f32⟩
  | 73 => ⟨S_, .i32⟩
  | 74 => ⟨S2000000, .i32⟩
  | 75 => ⟨S2000000, .i1⟩
  | 76 => ⟨S_, .i32⟩
  | 77 => ⟨S2000000, .i32⟩
  | 78 => ⟨S2000000, .i32⟩
  | 79 => ⟨S2000000, .i32⟩
  | 80 => ⟨S2000000x1, .i32⟩
  | 81 => ⟨S2000000x1, .f32⟩
  | 82 => ⟨S2000000x1, .f32⟩
  | 83 => ⟨S_, .f32⟩
  | 84 => ⟨S100000x1, .f32⟩
  | 85 => ⟨S2000000x1, .i32⟩
  | 86 => ⟨S100000x1, .f32⟩
  | 87 => ⟨S_, .f32⟩
  | 88 => ⟨S100000x1, .f32⟩
  | 89 => ⟨S100000x1, .f32⟩
  | 90 => ⟨S100000x1, .f32⟩
  | 91 => ⟨S1x1x32, .f32⟩
  | 92 => ⟨S1x32, .f32⟩
  | 93 => ⟨S100000x32, .f32⟩
  | 94 => ⟨S100000x32, .f32⟩
  | 95 => ⟨S1x32, .f32⟩
  | 96 => ⟨S100000x32, .f32⟩
  | 97 => ⟨S100000x32, .f32⟩
  | 98 => ⟨S_, .f32⟩
  | 99 => ⟨S100000x32, .f32⟩
  | 100 => ⟨S100000x32, .f32⟩
  | 101 => ⟨S1x32x32, .f32⟩
  | 102 => ⟨S32x32, .f32⟩
  | 103 => ⟨S100000x32, .f32⟩
  | 104 => ⟨S2000000x1, .f32⟩
  | 105 => ⟨S_, .i32⟩
  | 106 => ⟨S2000000, .i32⟩
  | 107 => ⟨S2000000, .i1⟩
  | 108 => ⟨S_, .i32⟩
  | 109 => ⟨S2000000, .i32⟩
  | 110 => ⟨S2000000, .i32⟩
  | 111 => ⟨S2000000, .i32⟩
  | 112 => ⟨S2000000x1, .i32⟩
  | 113 => ⟨S2000000x32, .f32⟩
  | 114 => ⟨S2000000x32, .f32⟩
  | 115 => ⟨S2000000x32, .f32⟩
  | 116 => ⟨S_, .f32⟩
  | 117 => ⟨S100000x32, .f32⟩
  | 118 => ⟨S2000000x1, .i32⟩
  | 119 => ⟨S100000x32, .f32⟩
  | 120 => ⟨S1x32x32, .f32⟩
  | 121 => ⟨S32x32, .f32⟩
  | 122 => ⟨S100000x32, .f32⟩
  | 123 => ⟨S100000x32, .f32⟩
  | 124 => ⟨S2000000x1, .f32⟩
  | 125 => ⟨S_, .i32⟩
  | 126 => ⟨S2000000, .i32⟩
  | 127 => ⟨S2000000, .i1⟩
  | _ => ⟨S100000x1, .f32⟩

abbrev hbmTy0_1 (i : Nat) : BufTy := match i % 128 with
  | 0 => ⟨S_, .i32⟩
  | 1 => ⟨S2000000, .i32⟩
  | 2 => ⟨S2000000, .i32⟩
  | 3 => ⟨S2000000, .i32⟩
  | 4 => ⟨S2000000x1, .i32⟩
  | 5 => ⟨S2000000x32, .f32⟩
  | 6 => ⟨S2000000x32, .f32⟩
  | 7 => ⟨S2000000x32, .f32⟩
  | 8 => ⟨S_, .f32⟩
  | 9 => ⟨S100000x32, .f32⟩
  | 10 => ⟨S2000000x1, .i32⟩
  | 11 => ⟨S100000x32, .f32⟩
  | 12 => ⟨S_, .f32⟩
  | 13 => ⟨S100000x32, .f32⟩
  | 14 => ⟨S100000x32, .f32⟩
  | 15 => ⟨S100000x32, .f32⟩
  | 16 => ⟨S1x32x32, .f32⟩
  | 17 => ⟨S32x32, .f32⟩
  | 18 => ⟨S100000x32, .f32⟩
  | 19 => ⟨S100000x32, .f32⟩
  | 20 => ⟨S1x32, .f32⟩
  | 21 => ⟨S100000x32, .f32⟩
  | 22 => ⟨S100000x32, .f32⟩
  | 23 => ⟨S_, .f32⟩
  | 24 => ⟨S100000x32, .f32⟩
  | 25 => ⟨S100000x32, .f32⟩
  | 26 => ⟨S100000x1, .f32⟩
  | 27 => ⟨S1x1, .f32⟩
  | 28 => ⟨S100000x1, .f32⟩
  | 29 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call1_cst : Ref sig .tc := ⟨.hbm, 98, rfl⟩
abbrev main_call1_v0 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_14 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_16 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_17 : Ref sig .tc := ⟨.hbm, 125, rfl⟩
abbrev main_v94 : Ref sig .tc := ⟨.hbm, 126, rfl⟩
abbrev main_v95 : Ref sig .tc := ⟨.hbm, 127, rfl⟩
abbrev main_c_18 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_19 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_20 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_call2_cst : Ref sig .tc := ⟨.hbm, 151, rfl⟩
abbrev main_call2_v0 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  slices_S3x1x32_S1x1x32_0_0_0 : S3x1x32.Slices ![0, 0, 0] S1x1x32
  shapeCasts_S1x1x32_S1x32 : S1x1x32.ShapeCasts S1x32
  bcast_S_S100000x1 : S_.BroadcastsInDim S100000x1 (![] : Fin 0 → Fin S100000x1.rank)
  slices_S3x1x32_S1x1x32_1_0_0 : S3x1x32.Slices ![1, 0, 0] S1x1x32
  slices_S3x1x32_S1x1x32_2_0_0 : S3x1x32.Slices ![2, 0, 0] S1x1x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  slices_S3x32x32_S1x32x32_0_0_0 : S3x32x32.Slices ![0, 0, 0] S1x32x32
  shapeCasts_S1x32x32_S32x32 : S1x32x32.ShapeCasts S32x32
  bcast_S2000000x1_S2000000x32_0_1 : S2000000x1.BroadcastsInDim S2000000x32 (![0, 1] : Fin 2 → Fin S2000000x32.rank)
  slices_S3x32x32_S1x32x32_1_0_0 : S3x32x32.Slices ![1, 0, 0] S1x32x32
  slices_S3x32x32_S1x32x32_2_0_0 : S3x32x32.Slices ![2, 0, 0] S1x32x32
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S2000000x1_S2000000_n_0_0_1_wf : ScatterDims.WF S100000 S2000000x1 S2000000 [] [0] [0] 1
  gather_S100000_S2000000x1_S2000000_n_0_n_n_0_1_1_wf : GatherDims.WF S100000 S2000000x1 S2000000 [] [0] [] [0] [] 1 ![1]
  dot_S100000x1_S1x32_S100000x32_1_0_0_1_n_n_wf : DotDims.WF S100000x1 S1x32 S100000x32 [1] [0] [0] [1] [] []
  gather_S100000x1_S2000000x1_S2000000x1_1_0_n_n_0_1_11_wf : GatherDims.WF S100000x1 S2000000x1 S2000000x1 [1] [0] [] [0] [] 1 ![1, 1]
  scatter_S100000x1_S2000000x1_S2000000x1_1_0_0_1_wf : ScatterDims.WF S100000x1 S2000000x1 S2000000x1 [1] [0] [0] 1
  dot_S100000x32_S32x32_S100000x32_1_0_0_1_n_n_wf : DotDims.WF S100000x32 S32x32 S100000x32 [1] [0] [0] [1] [] []
  gather_S100000x32_S2000000x1_S2000000x32_1_0_n_n_0_1_132_wf : GatherDims.WF S100000x32 S2000000x1 S2000000x32 [1] [0] [] [0] [] 1 ![1, 32]
  scatter_S100000x32_S2000000x1_S2000000x32_1_0_0_1_wf : ScatterDims.WF S100000x32 S2000000x1 S2000000x32 [1] [0] [0] 1
  dot_S100000x32_S32x1_S100000x1_1_0_0_1_n_n_wf : DotDims.WF S100000x32 S32x1 S100000x1 [1] [0] [0] [1] [] []

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def dot_S100000x1_S1x32_S100000x32_1_0_0_1_n_n : DotDims S100000x1 S1x32 S100000x32 where
  lhsContracting := [1]
  rhsContracting := [0]
  lhsNonContracting := [0]
  rhsNonContracting := [1]
  lhsBatch := []
  rhsBatch := []
  wf := dot_S100000x1_S1x32_S100000x32_1_0_0_1_n_n_wf
def gather_S100000x1_S2000000x1_S2000000x1_1_0_n_n_0_1_11 : GatherDims S100000x1 S2000000x1 S2000000x1 where
  offsetDims := [1]
  collapsedSliceDims := [0]
  operandBatchingDims := []
  startIndicesBatchingDims := []
  startIndexMap := [0]
  indexVectorDim := 1
  sliceSizes := ![1, 1]
  wf := gather_S100000x1_S2000000x1_S2000000x1_1_0_n_n_0_1_11_wf
def scatter_S100000x1_S2000000x1_S2000000x1_1_0_0_1 : ScatterDims S100000x1 S2000000x1 S2000000x1 where
  updateWindowDims := [1]
  insertedWindowDims := [0]
  scatterDimsToOperandDims := [0]
  indexVectorDim := 1
  wf := scatter_S100000x1_S2000000x1_S2000000x1_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel program's run with its result named.

  @main is six segments: three stretches of host operations (the edge weights and the two propagations of the input
  features), the first fused layer as a pipelined region over twenty blocks of 5000 nodes, one more stretch (the two
  propagations of the hidden features) and the second fused layer with the final projection as a second region. Every
  weakly fair execution runs them in order without a fault, and when it ends every buffer that is not scoped to a region
  holds the contents the last boundary names: the fold of the host stretches over the launch memory, with each region's
  arrays at what its blocks' write-backs leave. In particular the result array holds that fold's contents at the result
  buffer, and the eight argument arrays hold what they were launched with.
-/
import proofs.«169452_j7576322310704_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array then holds the last boundary's
    contents at the result buffer, and each argument array what it was launched with. -/
theorem run_main : θ_run defs (onTc (τ := τ) (main (F := F))) ⟨m, fun _ => 0, ρ⟩ (fun r => ∀ c : Dev nD,
      r.2.mem ((c.tc : Thread nD τ).loc main_v82) = W6 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v82 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«169452_j7576322310704_1_alg».proof.Proof.LibContract
import proofs.«169452_j7576322310704_1_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.LibRowSpread.lean ====
/-
  A vector laid along every row of a matrix, in a vector program's spelling.

  A vector of b entries is first viewed as a one-row matrix [1, b] (a shape cast) and that row is then broadcast to
  [a, b]. Read at (r, c) the result is the vector's entry c, for any extents a and b and any entry type.
-/
import Idealize.ShloMosaic.Lib.ValueIdx
import Idealize.ShloMosaic.Lib.ValueLayout

namespace Idealize.ShloMosaic.RowSpread

open Idealize.ShloMosaic Idealize.ShloMosaic.ValueIdx

/-- A vector viewed as one row and laid along every row of an [a, b] matrix reads, at (r, c), the vector at c. -/
theorem row_spread {α : Type} {a b : ℕ} (x : (⟨1, ![b]⟩ : Shape).Idx → α)
    (h1 : (⟨1, ![b]⟩ : Shape).ShapeCasts ⟨2, ![1, b]⟩) (hb : (⟨2, ![1, b]⟩ : Shape).Broadcasts ⟨2, ![a, b]⟩)
    (j : (⟨2, ![a, b]⟩ : Shape).Idx) :
    broadcastTo ⟨2, ![a, b]⟩ (shapeCast ⟨2, ![1, b]⟩ x h1) hb j = x (ix1 (j 1)) := by
  have e := eq_ix2 j
  rw [e]
  exact (broadcastTo_1b_ab_apply _ hb (j 0) (j 1)).trans (shapeCast_a_1a_apply x h1 0 (j 1))

end Idealize.ShloMosaic.RowSpread
-- ==== Proof.LibChebRow.lean ====
/-
  One entry of a Chebyshev graph-convolution layer, and of the final projection, on the extended reals.

  A layer of order three takes three feature rows of one node — the node's own features x, the once-propagated features
  t and the twice-propagated features p — and three weight matrices W₀, W₁, W₂ with a bias b. Its entry j is
      max (((x·W₀ + t·W₁) + (2·p − x)·W₂)ⱼ + bⱼ, 0),
  the three products added in that order. The final projection of a hidden row h is (h·W)ⱼ + bⱼ.

  A vector program computes the layer on a block of rows by three matrix products into zero accumulators (its operands
  narrowed to bf16 first, which changes nothing on the extended reals), the weights read out of a stack [1, K, N] by a
  shape cast and the bias row laid along the rows. Read at the entry (r, j) of the block that is the layer's entry of
  row r, for any extents.
-/
import Idealize.ShloMosaic.Lib.ValueIdx
import Idealize.ShloMosaic.Lib.ValueLayout
import Idealize.ShloMosaic.Lib.Pipeline.Value
import Idealize.ShloMosaic.PureOps.Ideal.Laws
import proofs.«169452_j7576322310704_1_alg».proof.Proof.LibDenseVec
import proofs.«169452_j7576322310704_1_alg».proof.Proof.LibRowSpread

noncomputable section

open scoped BigOperators

namespace Cert.Bridge.ChebRow

open Idealize.ShloMosaic Idealize.ShloMosaic.ValueIdx

/-- The number two as the programs spell it: the f32 word 0x40000000. -/
abbrev two : EReal := Ideal.ofBits .f32 0x40000000#32
/-- The number zero as the programs spell it: the f32 word 0x00000000. -/
abbrev zero : EReal := Ideal.ofBits .f32 0x00000000#32

/-- One entry of a layer: the three feature rows x, t, p against the matching columns of W₀, W₁, W₂, plus the bias
    entry, rectified. -/
def chebEntry {K : ℕ} (x t p w0 w1 w2 : Fin K → EReal) (b : EReal) : EReal :=
  max ((((∑ k, x k * w0 k) + (∑ k, t k * w1 k)) + (∑ k, (two * p k - x k) * w2 k)) + b) zero

/-- A whole layer as an array: entry (r, j) is the layer's entry j of row r; the weights are a stack [3, K, N]. -/
def chebLayer {n K N : ℕ} (x t p : (⟨2, ![n, K]⟩ : Shape).Idx → EReal) (w : (⟨3, ![3, K, N]⟩ : Shape).Idx → EReal)
    (b : (⟨1, ![N]⟩ : Shape).Idx → EReal) : (⟨2, ![n, N]⟩ : Shape).Idx → EReal :=
  fun i => chebEntry (fun k => x (ix2 (i 0) k)) (fun k => t (ix2 (i 0) k)) (fun k => p (ix2 (i 0) k))
    (fun k => w (ix3 (0 : Fin 3) k (i 1))) (fun k => w (ix3 (1 : Fin 3) k (i 1))) (fun k => w (ix3 (2 : Fin 3) k (i 1)))
    (b (ix1 (i 1)))

/-- The final projection as an array: entry (r, j) is ∑ k, h (r, k) · W (k, j) plus the bias entry j. -/
def project {n K N : ℕ} (h : (⟨2, ![n, K]⟩ : Shape).Idx → EReal) (w : (⟨2, ![K, N]⟩ : Shape).Idx → EReal)
    (b : (⟨1, ![N]⟩ : Shape).Idx → EReal) : (⟨2, ![n, N]⟩ : Shape).Idx → EReal :=
  fun i => (∑ k, h (ix2 (i 0) k) * w (ix2 k (i 1))) + b (ix1 (i 1))

/-- A layer depends on its three feature arrays only. -/
theorem chebLayer_congr {n K N : ℕ} {x x' t t' p p' : (⟨2, ![n, K]⟩ : Shape).Idx → EReal}
    (w : (⟨3, ![3, K, N]⟩ : Shape).Idx → EReal) (b : (⟨1, ![N]⟩ : Shape).Idx → EReal)
    (hx : x = x') (ht : t = t') (hp : p = p') : chebLayer x t p w b = chebLayer x' t' p' w b := by
  subst hx; subst ht; subst hp; rfl

variable {n K N : ℕ}

/-- A vector program's layer on a block of n rows, read at (r, j): three products into zero accumulators added in
    order, the bias row laid along the rows, the maximum with zero. -/
theorem block_layer_apply {D : DotDims (⟨2, ![n, K]⟩ : Shape) (⟨2, ![K, N]⟩ : Shape) (⟨2, ![n, N]⟩ : Shape)}
    (hD : DenseVec.Plain D)
    (x t p : FVec Ideal (⟨2, ![n, K]⟩ : Shape) .f32) (w0 w1 w2 : FVec Ideal (⟨3, ![1, K, N]⟩ : Shape) .f32)
    (b : FVec Ideal (⟨1, ![N]⟩ : Shape) .f32)
    (hx : (⟨2, ![n, K]⟩ : Shape).ShapeCasts ⟨2, ![n, K]⟩) (hw : (⟨3, ![1, K, N]⟩ : Shape).ShapeCasts ⟨2, ![K, N]⟩)
    (hb1 : (⟨1, ![N]⟩ : Shape).ShapeCasts ⟨2, ![1, N]⟩) (hb2 : (⟨2, ![1, N]⟩ : Shape).Broadcasts ⟨2, ![n, N]⟩)
    (hbits : FTy.bf16.bits < FTy.f32.bits) (r : Fin n) (j : Fin N) :
    maximumf (addf (addf (addf
          (matmul D none (truncf .bf16 x hbits) (truncf .bf16 (shapeCast ⟨2, ![K, N]⟩ w0 hw) hbits)
            (constant (F := Ideal) (⟨2, ![n, N]⟩ : Shape) .f32 0x00000000#32))
          (matmul D none (truncf .bf16 (shapeCast ⟨2, ![n, K]⟩ t hx) hbits) (truncf .bf16 (shapeCast ⟨2, ![K, N]⟩ w1 hw) hbits)
            (constant (F := Ideal) (⟨2, ![n, N]⟩ : Shape) .f32 0x00000000#32)))
          (matmul D none
            (truncf .bf16 (subf (mulf (broadcast (⟨2, ![n, K]⟩ : Shape) (Scalar.ofBits (F := Ideal) .f32 0x40000000#32))
              (shapeCast ⟨2, ![n, K]⟩ p hx)) x) hbits)
            (truncf .bf16 (shapeCast ⟨2, ![K, N]⟩ w2 hw) hbits)
            (constant (F := Ideal) (⟨2, ![n, N]⟩ : Shape) .f32 0x00000000#32)))
        (broadcastTo ⟨2, ![n, N]⟩ (shapeCast ⟨2, ![1, N]⟩ b hb1) hb2))
      (broadcast (⟨2, ![n, N]⟩ : Shape) (Scalar.ofBits (F := Ideal) .f32 0x00000000#32)) (ix2 r j)
    = chebEntry (fun k => x (ix2 r k)) (fun k => t (ix2 r k)) (fun k => p (ix2 r k))
        (fun k => w0 (ix3 (0 : Fin 1) k j)) (fun k => w1 (ix3 (0 : Fin 1) k j)) (fun k => w2 (ix3 (0 : Fin 1) k j))
        (b (ix1 j)) := by
  rw [shapeCast_self t hx, shapeCast_self p hx]
  show max ((((matmul D none _ _ _ (ix2 r j)) + (matmul D none _ _ _ (ix2 r j))) + (matmul D none _ _ _ (ix2 r j)))
      + broadcastTo ⟨2, ![n, N]⟩ (shapeCast ⟨2, ![1, N]⟩ b hb1) hb2 (ix2 r j)) zero = _
  rw [DenseVec.matmul_zero_ix2 hD, DenseVec.matmul_zero_ix2 hD, DenseVec.matmul_zero_ix2 hD,
    RowSpread.row_spread b hb1 hb2 (ix2 r j)]
  unfold chebEntry
  refine congrArg (fun s => max (s + b (ix1 j)) zero) ?_
  refine congrArg₂ (· + ·) (congrArg₂ (· + ·) ?_ ?_) ?_
  · exact Finset.sum_congr rfl fun k _ => congrArg (x (ix2 r k) * ·) (shapeCast_1ab_ab_apply w0 hw k j)
  · exact Finset.sum_congr rfl fun k _ => congrArg (t (ix2 r k) * ·) (shapeCast_1ab_ab_apply w1 hw k j)
  · exact Finset.sum_congr rfl fun k _ => congrArg ((two * p (ix2 r k) - x (ix2 r k)) * ·) (shapeCast_1ab_ab_apply w2 hw k j)

/-- A vector program's projection of a block of rows, read at (r, j): one product into the zero accumulator plus the
    bias row laid along the rows. -/
theorem block_project_apply {D : DotDims (⟨2, ![n, K]⟩ : Shape) (⟨2, ![K, N]⟩ : Shape) (⟨2, ![n, N]⟩ : Shape)}
    (hD : DenseVec.Plain D) {φ₁ φ₂ : FTy} (h : FVec Ideal (⟨2, ![n, K]⟩ : Shape) φ₁) (w : FVec Ideal (⟨2, ![K, N]⟩ : Shape) φ₂)
    (b : FVec Ideal (⟨1, ![N]⟩ : Shape) .f32)
    (hb1 : (⟨1, ![N]⟩ : Shape).ShapeCasts ⟨2, ![1, N]⟩) (hb2 : (⟨2, ![1, N]⟩ : Shape).Broadcasts ⟨2, ![n, N]⟩)
    (r : Fin n) (j : Fin N) :
    addf (matmul D none h w (constant (F := Ideal) (⟨2, ![n, N]⟩ : Shape) .f32 0x00000000#32))
        (broadcastTo ⟨2, ![n, N]⟩ (shapeCast ⟨2, ![1, N]⟩ b hb1) hb2) (ix2 r j)
      = (∑ k : Fin K, h (ix2 r k) * w (ix2 k j)) + b (ix1 j) := by
  show matmul D none h w _ (ix2 r j) + broadcastTo ⟨2, ![n, N]⟩ (shapeCast ⟨2, ![1, N]⟩ b hb1) hb2 (ix2 r j) = _
  rw [DenseVec.matmul_zero_ix2 hD, RowSpread.row_spread b hb1 hb2 (ix2 r j)]
  rfl

end Cert.Bridge.ChebRow

end
-- ==== Proof.Layer1Value.lean ====
/-
  The first fused layer's output array, as one function of the arrays the region finds.

  The region tiles the 100000 nodes into twenty blocks of 5000 rows. At a block the body reads the block's rows of the
  node features x (one column), of the once-propagated features t and of the twice-propagated features p, the whole
  weight stack [3, 1, 32] and the bias, and stores for every row r of the block and every output column j
      max (((x·W₀ + t·W₁) + (2·p − x)·W₂)(r, j) + b j, 0).
  A row's entry depends on that row alone, so block number q of the output is rows 5000·q … 5000·q + 4999 of ONE array,
  the layer of the whole arrays; the twenty blocks cover the output, which therefore ends holding that layer.
-/
import proofs.«169452_j7576322310704_1_alg».proof.Proof.Gen.KernelIdeal.Frame
import proofs.«169452_j7576322310704_1_alg».proof.Proof.LibChebRow

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Bridge.ChebRow

/-- The block product contracts the block's one feature column with the weight row: one contracted axis of extent 1,
    the free axes reading the result's row and column. -/
theorem plain : DenseVec.Plain (n := 5000) (K := 1) (N := 32) dot_S5000x1_S1x32_S5000x32_1_0_0_1_n_n where
  rank := rfl
  size := fun _ => rfl
  lhs := rfl
  rhs := rfl
  row := fun j q => by
    unfold DotDims.lhsIdx
    rw [dif_neg (show ¬(0 : Fin S5000x1.rank) ∈ dot_S5000x1_S1x32_S5000x32_1_0_0_1_n_n.lhsBatch by decide),
      dif_pos (show (0 : Fin S5000x1.rank) ∈ dot_S5000x1_S1x32_S5000x32_1_0_0_1_n_n.lhsNonContracting by decide)]
    rfl
  col := fun j q => by
    unfold DotDims.rhsIdx
    rw [dif_neg (show ¬(1 : Fin S1x32.rank) ∈ dot_S5000x1_S1x32_S5000x32_1_0_0_1_n_n.rhsBatch by decide),
      dif_pos (show (1 : Fin S1x32.rank) ∈ dot_S5000x1_S1x32_S5000x32_1_0_0_1_n_n.rhsNonContracting by decide)]
    rfl

/-- What the body stores, at row y 0 and column y 1 of the block: the layer's entry of that row, over the loaded blocks. -/
theorem stored_apply (x0 x1 x2 : Vec Ideal S5000x1 .f32) (w0 w1 w2 : Vec Ideal S1x1x32 .f32) (b : Vec Ideal S32 .f32)
    (y : S5000x32.Idx) :
    k0_pay1 x0 x1 x2 w0 w1 w2 b y
      = chebEntry (fun k : Fin 1 => x0 (ix2 (y 0) k)) (fun k => x1 (ix2 (y 0) k)) (fun k => x2 (ix2 (y 0) k))
          (fun k => w0 (ix3 (0 : Fin 1) k (y 1))) (fun k => w1 (ix3 (0 : Fin 1) k (y 1))) (fun k => w2 (ix3 (0 : Fin 1) k (y 1)))
          (b (ix1 (y 1))) := by
  rw [eq_ix2 y]
  exact block_layer_apply (n := 5000) (K := 1) (N := 32) plain x0 x1 x2 w0 w1 w2 b _ _ _ _ _ (y 0) (y 1)

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the twenty grid points: the three feature windows and the output window sit at block
    row t, everything else at block 0. -/
theorem blocks_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The layer of the whole arrays as the region finds them. -/
def layer (c : Dev nD) : S100000x32.Idx → EReal :=
  chebLayer (n := 100000) (K := 1) (N := 32) (V c main_arg0) (V c main_v42) (V c main_v54) (V c main_arg2) (V c main_arg3)

/-- What grid point t writes back is block t of the layer of the whole arrays. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero zeros2]
  simp only [View.ld_unit_zero (S := S5000x1) zeros2, View.ld_unit_zero (S := S32) zeros1]
  obtain ⟨a00, a01, a10, a11, a20, a21, a30, a31, a32, a40, a50, a51⟩ := blocks_at t
  funext y
  refine (stored_apply _ _ _ _ _ _ _ y).trans ?_
  show _ = chebEntry _ _ _ _ _ _ _
  have hy0 : (y 0).val < 5000 := (y 0).isLt
  have hy1 : (y 1).val < 32 := (y 1).isLt
  refine congr (congr (congr (congr (congr (congr (congrArg chebEntry ?_) ?_) ?_) ?_) ?_) ?_) ?_
  · funext k
    show V c main_arg0 (((cfg0.win 0).blk t).view.emb (ix2 (y 0) k)) = V c main_arg0 _
    refine congrArg (V c main_arg0) (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 1 + 1 * k.val = k.val; omega
  · funext k
    show V c main_v42 (((cfg0.win 1).blk t).view.emb (ix2 (y 0) k)) = V c main_v42 _
    refine congrArg (V c main_v42) (funext fun a => Fin.ext ?_)
    match a with
    | ⟨0, _⟩ => show win0_1.index t (0 : Fin 2) * 5000 + 1 * (y 0).val = win0_5.index t (0 : Fin 2) * 5000 + 1 * (y 0).val; omega
    | ⟨1, _⟩ => show win0_1.index t (1 : Fin 2) * 1 + 1 * k.val = k.val; omega
  · funext k
    show V c main_v54 (((cfg0.win 2).blk t).view.emb (ix2 (y 0) k)) = V c main_v54 _
    refine congrArg (V c main_v54) (funext fun a => Fin.ext ?_)
    match a with
    | ⟨0, _⟩ => show win0_2.index t (0 : Fin 2) * 5000 + 1 * (y 0).val = win0_5.index t (0 : Fin 2) * 5000 + 1 * (y 0).val; omega
    | ⟨1, _⟩ => show win0_2.index t (1 : Fin 2) * 1 + 1 * k.val = k.val; omega
  · funext k
    show V c main_arg2 (((cfg0.win 3).blk t).view.emb (r0_1.emb (ix3 (0 : Fin 1) k (y 1)))) = V c main_arg2 _
    refine congrArg (V c main_arg2) (funext fun a => Fin.ext ?_)
    match a with
    | ⟨0, _⟩ => show win0_3.index t (0 : Fin 3) * 3 + 1 * (0 + 1 * 0) = 0; omega
    | ⟨1, _⟩ => show win0_3.index t (1 : Fin 3) * 1 + 1 * (0 + 1 * k.val) = k.val; omega
    | ⟨2, _⟩ => show win0_3.index t (2 : Fin 3) * 32 + 1 * (0 + 1 * (y 1).val) = win0_5.index t (1 : Fin 2) * 32 + 1 * (y 1).val; omega
  · funext k
    show V c main_arg2 (((cfg0.win 3).blk t).view.emb (r0_2.emb (ix3 (0 : Fin 1) k (y 1)))) = V c main_arg2 _
    refine congrArg (V c main_arg2) (funext fun a => Fin.ext ?_)
    match a with
    | ⟨0, _⟩ => show win0_3.index t (0 : Fin 3) * 3 + 1 * (1 + 1 * 0) = 1; omega
    | ⟨1, _⟩ => show win0_3.index t (1 : Fin 3) * 1 + 1 * (0 + 1 * k.val) = k.val; omega
    | ⟨2, _⟩ => show win0_3.index t (2 : Fin 3) * 32 + 1 * (0 + 1 * (y 1).val) = win0_5.index t (1 : Fin 2) * 32 + 1 * (y 1).val; omega
  · funext k
    show V c main_arg2 (((cfg0.win 3).blk t).view.emb (r0_3.emb (ix3 (0 : Fin 1) k (y 1)))) = V c main_arg2 _
    refine congrArg (V c main_arg2) (funext fun a => Fin.ext ?_)
    match a with
    | ⟨0, _⟩ => show win0_3.index t (0 : Fin 3) * 3 + 1 * (2 + 1 * 0) = 2; omega
    | ⟨1, _⟩ => show win0_3.index t (1 : Fin 3) * 1 + 1 * (0 + 1 * k.val) = k.val; omega
    | ⟨2, _⟩ => show win0_3.index t (2 : Fin 3) * 32 + 1 * (0 + 1 * (y 1).val) = win0_5.index t (1 : Fin 2) * 32 + 1 * (y 1).val; omega
  · show V c main_arg3 (((cfg0.win 4).blk t).view.emb (ix1 (y 1))) = V c main_arg3 _
    refine congrArg (V c main_arg3) (funext fun a => Fin.ext ?_)
    obtain ⟨a, ha⟩ := a
    have ha0 : a = 0 := Nat.lt_one_iff.mp ha
    subst ha0
    show win0_4.index t (0 : Fin 1) * 32 + 1 * (y 1).val = win0_5.index t (1 : Fin 2) * 32 + 1 * (y 1).val
    omega

/-- An index of the output array is in point t's block iff each coordinate is in the block's range on its axis. -/
theorem mem_blk (t : Fin cfg0.N) (i : S100000x32.Idx) :
    i ∈ ((cfg0.win 5).blk t).view.set ↔ ∀ a : Fin 2, win0_5.index t a * S5000x32.size a ≤ (i a).val
      ∧ (i a).val < win0_5.index t a * S5000x32.size a + S5000x32.size a := by
  show i ∈ ((View.whole main_v55).slice (win0_5.rect t)).set ↔ _
  rw [View.set_slice_whole, Rect.mem_set_unit]
  exact Iff.rfl

/-- Every entry of the output lies in the block of the point its row falls in: row r in block r / 5000. -/
theorem covered (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  have hq : (i 0).val / 5000 < 20 := by omega
  refine ⟨⟨(i 0).val / 5000, hq⟩, flush0_5 _, ?_⟩
  obtain ⟨-, -, -, -, -, -, -, -, -, -, a50, a51⟩ := blocks_at ⟨(i 0).val / 5000, hq⟩
  have e0 : win0_5.index ⟨(i 0).val / 5000, hq⟩ (0 : Fin 2) = (i 0).val / 5000 := a50
  rw [mem_blk]
  intro a
  match a with
  | ⟨0, _⟩ =>
    show win0_5.index ⟨(i 0).val / 5000, hq⟩ (0 : Fin 2) * 5000 ≤ (i 0).val
      ∧ (i 0).val < win0_5.index ⟨(i 0).val / 5000, hq⟩ (0 : Fin 2) * 5000 + 5000
    omega
  | ⟨1, _⟩ =>
    show win0_5.index ⟨(i 0).val / 5000, hq⟩ (1 : Fin 2) * 32 ≤ (i 1).val
      ∧ (i 1).val < win0_5.index ⟨(i 0).val / 5000, hq⟩ (1 : Fin 2) * 32 + 32
    omega

/-- The output array after the region: the layer of the whole arrays. -/
theorem final (c : Dev nD) : (dat0 V c).arrAt 5 cfg0.N = layer V c :=
  (dat0 V c).arrAt_eq_of_cover 5 (layer V c) (fun t _ => flushed_eq V c t) covered

end Cert.KernelIdeal.Layer1

end
-- ==== Proof.Layer2Value.lean ====
/-
  The second fused layer's output array — the layer followed by the final projection — as one function of the arrays
  the region finds.

  The region again tiles the 100000 nodes into twenty blocks of 5000 rows. At a block the body reads the block's rows of
  the hidden features h, of their once-propagated form t and twice-propagated form p (32 columns each), the weight stack
  [3, 32, 32], the bias, the projection column [32, 1] and its bias, forms for every row r the hidden row
      max (((h·W₀ + t·W₁) + (2·p − h)·W₂)(r, ·) + b, 0)
  and stores its projection ∑ k, hidden (r, k) · Wfc (k, 0) + bfc. A row's entry depends on that row alone, so block q of
  the output is rows 5000·q … 5000·q + 4999 of ONE array, the projection of the layer of the whole arrays; the twenty
  blocks cover the output, which therefore ends holding it.
-/
import proofs.«169452_j7576322310704_1_alg».proof.Proof.Gen.KernelIdeal.Frame
import proofs.«169452_j7576322310704_1_alg».proof.Proof.LibChebRow

set_option maxRecDepth 16384

noncomputable section

open scoped BigOperators

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Bridge.ChebRow

/-- The layer's block product contracts the block's 32 feature columns with the weight matrix's rows. -/
theorem plain : DenseVec.Plain (n := 5000) (K := 32) (N := 32) dot_S5000x32_S32x32_S5000x32_1_0_0_1_n_n where
  rank := rfl
  size := fun _ => rfl
  lhs := rfl
  rhs := rfl
  row := fun j q => by
    unfold DotDims.lhsIdx
    rw [dif_neg (show ¬(0 : Fin S5000x32.rank) ∈ dot_S5000x32_S32x32_S5000x32_1_0_0_1_n_n.lhsBatch by decide),
      dif_pos (show (0 : Fin S5000x32.rank) ∈ dot_S5000x32_S32x32_S5000x32_1_0_0_1_n_n.lhsNonContracting by decide)]
    rfl
  col := fun j q => by
    unfold DotDims.rhsIdx
    rw [dif_neg (show ¬(1 : Fin S32x32.rank) ∈ dot_S5000x32_S32x32_S5000x32_1_0_0_1_n_n.rhsBatch by decide),
      dif_pos (show (1 : Fin S32x32.rank) ∈ dot_S5000x32_S32x32_S5000x32_1_0_0_1_n_n.rhsNonContracting by decide)]
    rfl

/-- The projection's block product contracts the hidden row's 32 entries with the projection column. -/
theorem plainFc : DenseVec.Plain (n := 5000) (K := 32) (N := 1) dot_S5000x32_S32x1_S5000x1_1_0_0_1_n_n where
  rank := rfl
  size := fun _ => rfl
  lhs := rfl
  rhs := rfl
  row := fun j q => by
    unfold DotDims.lhsIdx
    rw [dif_neg (show ¬(0 : Fin S5000x32.rank) ∈ dot_S5000x32_S32x1_S5000x1_1_0_0_1_n_n.lhsBatch by decide),
      dif_pos (show (0 : Fin S5000x32.rank) ∈ dot_S5000x32_S32x1_S5000x1_1_0_0_1_n_n.lhsNonContracting by decide)]
    rfl
  col := fun j q => by
    unfold DotDims.rhsIdx
    rw [dif_neg (show ¬(1 : Fin S32x1.rank) ∈ dot_S5000x32_S32x1_S5000x1_1_0_0_1_n_n.rhsBatch by decide),
      dif_pos (show (1 : Fin S32x1.rank) ∈ dot_S5000x32_S32x1_S5000x1_1_0_0_1_n_n.rhsNonContracting by decide)]
    rfl

/-- The hidden block the body forms, at row r and column k: the layer's entry of that row (narrowing it to bf16 for the
    projection changes nothing on the extended reals). -/
theorem hidden_apply (x0 x1 x2 : Vec Ideal S5000x32 .f32) (w0 w1 w2 : Vec Ideal S1x32x32 .f32) (b : Vec Ideal S32 .f32)
    (r : Fin 5000) (k : Fin 32) :
    k1_pay2 x0 x1 x2 w0 w1 w2 b (ix2 r k)
      = chebEntry (fun q : Fin 32 => x0 (ix2 r q)) (fun q => x1 (ix2 r q)) (fun q => x2 (ix2 r q))
          (fun q => w0 (ix3 (0 : Fin 1) q k)) (fun q => w1 (ix3 (0 : Fin 1) q k)) (fun q => w2 (ix3 (0 : Fin 1) q k))
          (b (ix1 k)) := by
  unfold k1_pay2
  refine (truncf_apply (ψ := .bf16) (φ := .f32) _ bitsLt_bf16_f32 (ix2 r k)).trans ?_
  rw [shapeCast_self x0 _]
  exact block_layer_apply (n := 5000) (K := 32) (N := 32) plain x0 x1 x2 w0 w1 w2 b _ _ _ _ _ r k

/-- What the body stores, at row y 0 of the block (the one output column): the projection of the hidden row. -/
theorem stored_apply (x0 x1 x2 : Vec Ideal S5000x32 .f32) (w0 w1 w2 : Vec Ideal S1x32x32 .f32) (b : Vec Ideal S32 .f32)
    (wf : Vec Ideal S32x1 .f32) (bf : Vec Ideal S1 .f32) (y : S5000x1.Idx) :
    k1_pay1 (k1_pay2 x0 x1 x2 w0 w1 w2 b) (k1_pay3 wf) (constant S5000x1 .f32 0x00000000#32) bf y
      = (∑ k : Fin 32, chebEntry (fun q : Fin 32 => x0 (ix2 (y 0) q)) (fun q => x1 (ix2 (y 0) q)) (fun q => x2 (ix2 (y 0) q))
            (fun q => w0 (ix3 (0 : Fin 1) q k)) (fun q => w1 (ix3 (0 : Fin 1) q k)) (fun q => w2 (ix3 (0 : Fin 1) q k))
            (b (ix1 k)) * wf (ix2 k (y 1)))
        + bf (ix1 (y 1)) := by
  rw [eq_ix2 y]
  refine (block_project_apply (n := 5000) (K := 32) (N := 1) plainFc (k1_pay2 x0 x1 x2 w0 w1 w2 b) (k1_pay3 wf) bf _ _
    (y 0) (y 1)).trans ?_
  refine congrArg (· + bf (ix1 (y 1))) (Finset.sum_congr rfl fun k _ => ?_)
  exact congrArg (· * wf (ix2 k (y 1))) (hidden_apply x0 x1 x2 w0 w1 w2 b (y 0) k)

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the twenty grid points: the three feature windows and the output window sit at block
    row t, everything else at block 0. -/
theorem blocks_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- The hidden layer of the whole arrays as the region finds them. -/
def hidden (c : Dev nD) : S100000x32.Idx → EReal :=
  chebLayer (n := 100000) (K := 32) (N := 32) (V c main_v55) (V c main_v68) (V c main_v81) (V c main_arg4) (V c main_arg5)

/-- Its projection: the region's output as one array. -/
def output (c : Dev nD) : S100000x1.Idx → EReal :=
  project (n := 100000) (K := 32) (N := 1) (hidden V c) (V c main_arg6) (V c main_arg7)

/-- The region's output at an entry: the projection of the hidden row, written out. -/
theorem output_apply (c : Dev nD) (i : S100000x1.Idx) :
    output V c i
      = (∑ k : Fin 32, chebEntry (fun q : Fin 32 => V c main_v55 (ix2 (i 0) q)) (fun q => V c main_v68 (ix2 (i 0) q))
            (fun q => V c main_v81 (ix2 (i 0) q))
            (fun q => V c main_arg4 (ix3 (0 : Fin 3) q k)) (fun q => V c main_arg4 (ix3 (1 : Fin 3) q k))
            (fun q => V c main_arg4 (ix3 (2 : Fin 3) q k)) (V c main_arg5 (ix1 k)) * V c main_arg6 (ix2 k (i 1)))
        + V c main_arg7 (ix1 (i 1)) := rfl

/-- The hidden row a block forms from its loaded blocks is the hidden row of the whole arrays: each loaded block is its
    array read at the block's rows, the weight stack and the bias read whole. -/
theorem hidden_row (c : Dev nD) (t : Fin cfg1.N) (y : S5000x1.Idx) (k : Fin 32) :
    chebEntry (fun q : Fin 32 => iblk1 V c 0 t (ix2 (y 0) q)) (fun q => iblk1 V c 1 t (ix2 (y 0) q))
        (fun q => iblk1 V c 2 t (ix2 (y 0) q))
        (fun q => View.ld (iblk1 V c 3 t) r1_1 (ix3 (0 : Fin 1) q k)) (fun q => View.ld (iblk1 V c 3 t) r1_2 (ix3 (0 : Fin 1) q k))
        (fun q => View.ld (iblk1 V c 3 t) r1_3 (ix3 (0 : Fin 1) q k)) (iblk1 V c 4 t (ix1 k))
      = chebEntry (fun q : Fin 32 => V c main_v55 (ix2 ((((cfg1.win 7).blk t).view.emb y) 0) q))
          (fun q => V c main_v68 (ix2 ((((cfg1.win 7).blk t).view.emb y) 0) q))
          (fun q => V c main_v81 (ix2 ((((cfg1.win 7).blk t).view.emb y) 0) q))
          (fun q => V c main_arg4 (ix3 (0 : Fin 3) q k)) (fun q => V c main_arg4 (ix3 (1 : Fin 3) q k))
          (fun q => V c main_arg4 (ix3 (2 : Fin 3) q k)) (V c main_arg5 (ix1 k)) := by
  obtain ⟨a00, a01, a10, a11, a20, a21, a30, a31, a32, a40, a50, a51, a60, a70, a71⟩ := blocks_at t
  have hy0 : (y 0).val < 5000 := (y 0).isLt
  refine congr (congr (congr (congr (congr (congr (congrArg chebEntry ?_) ?_) ?_) ?_) ?_) ?_) ?_
  · funext q
    show V c main_v55 (((cfg1.win 0).blk t).view.emb (ix2 (y 0) q)) = V c main_v55 _
    refine congrArg (V c main_v55) (funext fun a => Fin.ext ?_)
    match a with
    | ⟨0, _⟩ => show win1_0.index t (0 : Fin 2) * 5000 + 1 * (y 0).val = win1_7.index t (0 : Fin 2) * 5000 + 1 * (y 0).val; omega
    | ⟨1, _⟩ => show win1_0.index t (1 : Fin 2) * 32 + 1 * q.val = q.val; omega
  · funext q
    show V c main_v68 (((cfg1.win 1).blk t).view.emb (ix2 (y 0) q)) = V c main_v68 _
    refine congrArg (V c main_v68) (funext fun a => Fin.ext ?_)
    match a with
    | ⟨0, _⟩ => show win1_1.index t (0 : Fin 2) * 5000 + 1 * (y 0).val = win1_7.index t (0 : Fin 2) * 5000 + 1 * (y 0).val; omega
    | ⟨1, _⟩ => show win1_1.index t (1 : Fin 2) * 32 + 1 * q.val = q.val; omega
  · funext q
    show V c main_v81 (((cfg1.win 2).blk t).view.emb (ix2 (y 0) q)) = V c main_v81 _
    refine congrArg (V c main_v81) (funext fun a => Fin.ext ?_)
    match a with
    | ⟨0, _⟩ => show win1_2.index t (0 : Fin 2) * 5000 + 1 * (y 0).val = win1_7.index t (0 : Fin 2) * 5000 + 1 * (y 0).val; omega
    | ⟨1, _⟩ => show win1_2.index t (1 : Fin 2) * 32 + 1 * q.val = q.val; omega
  · funext q
    show V c main_arg4 (((cfg1.win 3).blk t).view.emb (r1_1.emb (ix3 (0 : Fin 1) q k))) = V c main_arg4 _
    refine congrArg (V c main_arg4) (funext fun a => Fin.ext ?_)
    match a with
    | ⟨0, _⟩ => show win1_3.index t (0 : Fin 3) * 3 + 1 * (0 + 1 * 0) = 0; omega
    | ⟨1, _⟩ => show win1_3.index t (1 : Fin 3) * 32 + 1 * (0 + 1 * q.val) = q.val; omega
    | ⟨2, _⟩ => show win1_3.index t (2 : Fin 3) * 32 + 1 * (0 + 1 * k.val) = k.val; omega
  · funext q
    show V c main_arg4 (((cfg1.win 3).blk t).view.emb (r1_2.emb (ix3 (0 : Fin 1) q k))) = V c main_arg4 _
    refine congrArg (V c main_arg4) (funext fun a => Fin.ext ?_)
    match a with
    | ⟨0, _⟩ => show win1_3.index t (0 : Fin 3) * 3 + 1 * (1 + 1 * 0) = 1; omega
    | ⟨1, _⟩ => show win1_3.index t (1 : Fin 3) * 32 + 1 * (0 + 1 * q.val) = q.val; omega
    | ⟨2, _⟩ => show win1_3.index t (2 : Fin 3) * 32 + 1 * (0 + 1 * k.val) = k.val; omega
  · funext q
    show V c main_arg4 (((cfg1.win 3).blk t).view.emb (r1_3.emb (ix3 (0 : Fin 1) q k))) = V c main_arg4 _
    refine congrArg (V c main_arg4) (funext fun a => Fin.ext ?_)
    match a with
    | ⟨0, _⟩ => show win1_3.index t (0 : Fin 3) * 3 + 1 * (2 + 1 * 0) = 2; omega
    | ⟨1, _⟩ => show win1_3.index t (1 : Fin 3) * 32 + 1 * (0 + 1 * q.val) = q.val; omega
    | ⟨2, _⟩ => show win1_3.index t (2 : Fin 3) * 32 + 1 * (0 + 1 * k.val) = k.val; omega
  · show V c main_arg5 (((cfg1.win 4).blk t).view.emb (ix1 k)) = V c main_arg5 _
    refine congrArg (V c main_arg5) (funext fun a => Fin.ext ?_)
    obtain ⟨a, ha⟩ := a
    have ha0 : a = 0 := Nat.lt_one_iff.mp ha
    subst ha0
    show win1_4.index t (0 : Fin 1) * 32 + 1 * k.val = k.val
    omega

/-- What grid point t writes back is block t of the projected layer of the whole arrays. -/
theorem flushed_eq (c : Dev nD) (t : Fin cfg1.N) :
    (dat1 V c).flushed 7 t = ((cfg1.win 7).blk t).view.read (Elt Ideal) (output V c) := by
  show (cfg1.win 7).cut (grid1.coords t) ((dat1 V c).after 7 t) = _
  rw [after1_7]
  unfold out1_7
  rw [View.canon_unit_zero zeros2]
  simp only [View.ld_unit_zero (S := S5000x32) zeros2, View.ld_unit_zero (S := S32) zeros1,
    View.ld_unit_zero (S := S32x1) zeros2, View.ld_unit_zero (S := S1) zeros1]
  obtain ⟨a00, a01, a10, a11, a20, a21, a30, a31, a32, a40, a50, a51, a60, a70, a71⟩ := blocks_at t
  funext y
  refine (stored_apply _ _ _ _ _ _ _ _ _ y).trans ?_
  refine Eq.trans ?_ (output_apply V c (((cfg1.win 7).blk t).view.emb y)).symm
  have hy0 : (y 0).val < 5000 := (y 0).isLt
  have hy1 : (y 1).val < 1 := (y 1).isLt
  refine congrArg₂ (· + ·) (Finset.sum_congr rfl fun k _ => congrArg₂ (· * ·) (hidden_row V c t y k) ?_) ?_
  · show V c main_arg6 (((cfg1.win 5).blk t).view.emb (ix2 k (y 1))) = V c main_arg6 _
    refine congrArg (V c main_arg6) (funext fun a => Fin.ext ?_)
    match a with
    | ⟨0, _⟩ => show win1_5.index t (0 : Fin 2) * 32 + 1 * k.val = k.val; omega
    | ⟨1, _⟩ => show win1_5.index t (1 : Fin 2) * 1 + 1 * (y 1).val = win1_7.index t (1 : Fin 2) * 1 + 1 * (y 1).val; omega
  · show V c main_arg7 (((cfg1.win 6).blk t).view.emb (ix1 (y 1))) = V c main_arg7 _
    refine congrArg (V c main_arg7) (funext fun a => Fin.ext ?_)
    obtain ⟨a, ha⟩ := a
    have ha0 : a = 0 := Nat.lt_one_iff.mp ha
    subst ha0
    show win1_6.index t (0 : Fin 1) * 1 + 1 * (y 1).val = win1_7.index t (1 : Fin 2) * 1 + 1 * (y 1).val
    omega

/-- An index of the output array is in point t's block iff each coordinate is in the block's range on its axis. -/
theorem mem_blk (t : Fin cfg1.N) (i : S100000x1.Idx) :
    i ∈ ((cfg1.win 7).blk t).view.set ↔ ∀ a : Fin 2, win1_7.index t a * S5000x1.size a ≤ (i a).val
      ∧ (i a).val < win1_7.index t a * S5000x1.size a + S5000x1.size a := by
  show i ∈ ((View.whole main_v82).slice (win1_7.rect t)).set ↔ _
  rw [View.set_slice_whole, Rect.mem_set_unit]
  exact Iff.rfl

/-- Every entry of the output lies in the block of the point its row falls in: row r in block r / 5000. -/
theorem covered (i : S100000x1.Idx) :
    ∃ t : Fin cfg1.N, (cfg1.win 7).flush t = true ∧ i ∈ ((cfg1.win 7).blk t).view.set := by
  have hi0 : (i 0).val < 100000 := (i 0).isLt
  have hi1 : (i 1).val < 1 := (i 1).isLt
  have hq : (i 0).val / 5000 < 20 := by omega
  refine ⟨⟨(i 0).val / 5000, hq⟩, flush1_7 _, ?_⟩
  obtain ⟨-, -, -, -, -, -, -, -, -, -, -, -, -, a70, a71⟩ := blocks_at ⟨(i 0).val / 5000, hq⟩
  have e0 : win1_7.index ⟨(i 0).val / 5000, hq⟩ (0 : Fin 2) = (i 0).val / 5000 := a70
  rw [mem_blk]
  intro a
  match a with
  | ⟨0, _⟩ =>
    show win1_7.index ⟨(i 0).val / 5000, hq⟩ (0 : Fin 2) * 5000 ≤ (i 0).val
      ∧ (i 0).val < win1_7.index ⟨(i 0).val / 5000, hq⟩ (0 : Fin 2) * 5000 + 5000
    omega
  | ⟨1, _⟩ =>
    show win1_7.index ⟨(i 0).val / 5000, hq⟩ (1 : Fin 2) * 1 ≤ (i 1).val
      ∧ (i 1).val < win1_7.index ⟨(i 0).val / 5000, hq⟩ (1 : Fin 2) * 1 + 1
    omega

/-- The output array after the region: the projected layer of the whole arrays. -/
theorem final (c : Dev nD) : (dat1 V c).arrAt 7 cfg1.N = output V c :=
  (dat1 V c).arrAt_eq_of_cover 7 (output V c) (fun t _ => flushed_eq V c t) covered

end Cert.KernelIdeal.Layer2

end
-- ==== Proof.LibChebLayout.lean ====
/-
  Slices of stacked arrays read at an entry.

  A rank-3 table of edge lists [n₀, n₁, E] gives up one list either in one step (slice to [1, 1, E], view as [E]) or in
  two (slice to [1, n₁, E], view as [n₁, E], slice to [1, E], view as [E]); both read entry q of list (o₀, o₁).  A stack
  of matrices [n, a, b] gives up matrix o (slice to [1, a, b], view as [a, b]); a rank-4 stack [n₀, n₁, a, b] gives up
  the stack o₀ (view as [n₁, a, b]), its column o₁ of matrices (slice to [n₀, 1, a, b], view as [n₀, a, b]), or two
  columns laid out as rows (slice to [n₀, 2, a, b], view as [n₀ · 2 · a, b]).  A host sum over the leading axis of a
  stack is the initial value plus the sum of the stack's entries.  Two matrices stacked along the rows read the upper
  one above its row count and the lower one below.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Idealize.ShloMosaic.ChebLayout

open Idealize.ShloMosaic Idealize.ShloMosaic.ValueIdx

variable {α : Type}

/-- One list of an [n₀, n₁, E] table, taken in one step. -/
theorem list_direct {n0 n1 E : ℕ} (o0 o1 : ℕ) (h0 : o0 < n0) (h1 : o1 < n1) (a : (⟨3, ![n0, n1, E]⟩ : Shape).Idx → α)
    (hs : (⟨3, ![n0, n1, E]⟩ : Shape).Slices ![o0, o1, 0] ⟨3, ![1, 1, E]⟩) (hc : (⟨3, ![1, 1, E]⟩ : Shape).ShapeCasts ⟨1, ![E]⟩) (q : Fin E) :
    shapeCast ⟨1, ![E]⟩ (extractStridedSlice ⟨3, ![1, 1, E]⟩ ![o0, o1, 0] a hs) hc (ix1 q) = a (ix3 ⟨o0, h0⟩ ⟨o1, h1⟩ q) := by
  refine (shapeCast_apply _ hc (ix1 q) (ix3 (0 : Fin 1) (0 : Fin 1) q) ?_).trans ?_
  · rw [Shape.rowMajor_val_three, Shape.rowMajor_val_one]
    show (0 * 1 + 0) * E + q.val = q.val
    simp
  · refine extractStridedSlice_apply _ a hs _ _ (fun x => ?_)
    match x with
    | ⟨0, _⟩ => show o0 = o0 + 0; rfl
    | ⟨1, _⟩ => show o1 = o1 + 0; rfl
    | ⟨2, _⟩ => show q.val = 0 + q.val; rw [Nat.zero_add]

/-- One list of an [n₀, n₁, E] table, taken in two steps. -/
theorem list_twostep {n0 n1 E : ℕ} (o0 o1 : ℕ) (h0 : o0 < n0) (h1 : o1 < n1) (a : (⟨3, ![n0, n1, E]⟩ : Shape).Idx → α)
    (hs1 : (⟨3, ![n0, n1, E]⟩ : Shape).Slices ![o0, 0, 0] ⟨3, ![1, n1, E]⟩) (hc1 : (⟨3, ![1, n1, E]⟩ : Shape).ShapeCasts ⟨2, ![n1, E]⟩)
    (hs2 : (⟨2, ![n1, E]⟩ : Shape).Slices ![o1, 0] ⟨2, ![1, E]⟩) (hc2 : (⟨2, ![1, E]⟩ : Shape).ShapeCasts ⟨1, ![E]⟩) (q : Fin E) :
    shapeCast ⟨1, ![E]⟩ (extractStridedSlice ⟨2, ![1, E]⟩ ![o1, 0]
        (shapeCast ⟨2, ![n1, E]⟩ (extractStridedSlice ⟨3, ![1, n1, E]⟩ ![o0, 0, 0] a hs1) hc1) hs2) hc2 (ix1 q)
      = a (ix3 ⟨o0, h0⟩ ⟨o1, h1⟩ q) := by
  rw [shapeCast_1a_a_apply]
  refine (extractStridedSlice_apply _ _ hs2 _ (ix2 ⟨o1, h1⟩ q) (fun x => ?_)).trans ?_
  · match x with
    | ⟨0, _⟩ => show o1 = o1 + 0; rfl
    | ⟨1, _⟩ => show q.val = 0 + q.val; rw [Nat.zero_add]
  rw [shapeCast_1ab_ab_apply]
  refine extractStridedSlice_apply _ a hs1 _ _ (fun x => ?_)
  match x with
  | ⟨0, _⟩ => show o0 = o0 + 0; rfl
  | ⟨1, _⟩ => show o1 = 0 + o1; rw [Nat.zero_add]
  | ⟨2, _⟩ => show q.val = 0 + q.val; rw [Nat.zero_add]

/-- One row of an [n, E] table: slice to [1, E], view as [E]. -/
theorem row_of {n E : ℕ} (o : ℕ) (ho : o < n) (a : (⟨2, ![n, E]⟩ : Shape).Idx → α)
    (hs : (⟨2, ![n, E]⟩ : Shape).Slices ![o, 0] ⟨2, ![1, E]⟩) (hc : (⟨2, ![1, E]⟩ : Shape).ShapeCasts ⟨1, ![E]⟩) (q : Fin E) :
    shapeCast ⟨1, ![E]⟩ (extractStridedSlice ⟨2, ![1, E]⟩ ![o, 0] a hs) hc (ix1 q) = a (ix2 ⟨o, ho⟩ q) := by
  rw [shapeCast_1a_a_apply]
  refine extractStridedSlice_apply _ a hs _ _ (fun x => ?_)
  match x with
  | ⟨0, _⟩ => show o = o + 0; rfl
  | ⟨1, _⟩ => show q.val = 0 + q.val; rw [Nat.zero_add]

/-- Matrix `o` of a stack [n, a, b]: slice to [1, a, b], view as [a, b]. -/
theorem mat_of_stack {n a b : ℕ} (o : ℕ) (ho : o < n) (w : (⟨3, ![n, a, b]⟩ : Shape).Idx → α)
    (hs : (⟨3, ![n, a, b]⟩ : Shape).Slices ![o, 0, 0] ⟨3, ![1, a, b]⟩) (hc : (⟨3, ![1, a, b]⟩ : Shape).ShapeCasts ⟨2, ![a, b]⟩)
    (k : Fin a) (j : Fin b) :
    shapeCast ⟨2, ![a, b]⟩ (extractStridedSlice ⟨3, ![1, a, b]⟩ ![o, 0, 0] w hs) hc (ix2 k j) = w (ix3 ⟨o, ho⟩ k j) := by
  rw [shapeCast_1ab_ab_apply]
  refine extractStridedSlice_apply _ w hs _ _ (fun x => ?_)
  match x with
  | ⟨0, _⟩ => show o = o + 0; rfl
  | ⟨1, _⟩ => show k.val = 0 + k.val; rw [Nat.zero_add]
  | ⟨2, _⟩ => show j.val = 0 + j.val; rw [Nat.zero_add]

/-- Stack `o` of a rank-4 stack [n₀, n₁, a, b]: slice to [1, n₁, a, b], view as [n₁, a, b]. -/
theorem stack_of_4 {n0 n1 a b : ℕ} (o : ℕ) (ho : o < n0) (w : (⟨4, ![n0, n1, a, b]⟩ : Shape).Idx → α)
    (hs : (⟨4, ![n0, n1, a, b]⟩ : Shape).Slices ![o, 0, 0, 0] ⟨4, ![1, n1, a, b]⟩)
    (hc : (⟨4, ![1, n1, a, b]⟩ : Shape).ShapeCasts ⟨3, ![n1, a, b]⟩) (s : Fin n1) (k : Fin a) (j : Fin b) :
    shapeCast ⟨3, ![n1, a, b]⟩ (extractStridedSlice ⟨4, ![1, n1, a, b]⟩ ![o, 0, 0, 0] w hs) hc (ix3 s k j) = w (ix4 ⟨o, ho⟩ s k j) := by
  rw [shapeCast_1abc_abc_apply]
  refine extractStridedSlice_apply _ w hs _ _ (fun x => ?_)
  match x with
  | ⟨0, _⟩ => show o = o + 0; rfl
  | ⟨1, _⟩ => show s.val = 0 + s.val; rw [Nat.zero_add]
  | ⟨2, _⟩ => show k.val = 0 + k.val; rw [Nat.zero_add]
  | ⟨3, _⟩ => show j.val = 0 + j.val; rw [Nat.zero_add]

/-- Column `o` of a rank-4 stack [n₀, n₁, a, b]: slice to [n₀, 1, a, b], view as [n₀, a, b]. -/
theorem column_of_4 {n0 n1 a b : ℕ} (o : ℕ) (ho : o < n1) (w : (⟨4, ![n0, n1, a, b]⟩ : Shape).Idx → α)
    (hs : (⟨4, ![n0, n1, a, b]⟩ : Shape).Slices ![0, o, 0, 0] ⟨4, ![n0, 1, a, b]⟩)
    (hc : (⟨4, ![n0, 1, a, b]⟩ : Shape).ShapeCasts ⟨3, ![n0, a, b]⟩) (i : Fin n0) (k : Fin a) (j : Fin b) :
    shapeCast ⟨3, ![n0, a, b]⟩ (extractStridedSlice ⟨4, ![n0, 1, a, b]⟩ ![0, o, 0, 0] w hs) hc (ix3 i k j) = w (ix4 i ⟨o, ho⟩ k j) := by
  refine (shapeCast_apply _ hc (ix3 i k j) (ix4 i (0 : Fin 1) k j) ?_).trans ?_
  · rw [Shape.rowMajor_val_four, Shape.rowMajor_val_three]
    show ((i.val * 1 + 0) * a + k.val) * b + j.val = (i.val * a + k.val) * b + j.val
    rw [Nat.mul_one, Nat.add_zero]
  · refine extractStridedSlice_apply _ w hs _ _ (fun x => ?_)
    match x with
    | ⟨0, _⟩ => show i.val = 0 + i.val; rw [Nat.zero_add]
    | ⟨1, _⟩ => show o = o + 0; rfl
    | ⟨2, _⟩ => show k.val = 0 + k.val; rw [Nat.zero_add]
    | ⟨3, _⟩ => show j.val = 0 + j.val; rw [Nat.zero_add]

/-- Two columns, from column `o` on, of a rank-4 stack laid out as the rows of one matrix: row (i · 2 + s) · a + k of the
    [n₀ · 2 · a, b] view is row k of matrix (i, o + s). -/
theorem two_columns_rows {n0 n1 a b R : ℕ} (o : ℕ) (w : (⟨4, ![n0, n1, a, b]⟩ : Shape).Idx → α)
    (hs : (⟨4, ![n0, n1, a, b]⟩ : Shape).Slices ![0, o, 0, 0] ⟨4, ![n0, 2, a, b]⟩)
    (hc : (⟨4, ![n0, 2, a, b]⟩ : Shape).ShapeCasts ⟨2, ![R, b]⟩) (i : Fin n0) (s : Fin 2) (ho : o + s.val < n1) (k : Fin a) (j : Fin b)
    (r : Fin R) (hr : r.val = (i.val * 2 + s.val) * a + k.val) :
    shapeCast ⟨2, ![R, b]⟩ (extractStridedSlice ⟨4, ![n0, 2, a, b]⟩ ![0, o, 0, 0] w hs) hc (ix2 r j) = w (ix4 i ⟨o + s.val, ho⟩ k j) := by
  refine (shapeCast_apply _ hc (ix2 r j) (ix4 i s k j) ?_).trans ?_
  · rw [Shape.rowMajor_val_four, Shape.rowMajor_val_two]
    show ((i.val * 2 + s.val) * a + k.val) * b + j.val = r.val * b + j.val
    rw [hr]
  · refine extractStridedSlice_apply _ w hs _ _ (fun x => ?_)
    match x with
    | ⟨0, _⟩ => show i.val = 0 + i.val; rw [Nat.zero_add]
    | ⟨1, _⟩ => show o + s.val = o + s.val; rfl
    | ⟨2, _⟩ => show k.val = 0 + k.val; rw [Nat.zero_add]
    | ⟨3, _⟩ => show j.val = 0 + j.val; rw [Nat.zero_add]

/-- The host's sum of a stack [n, a, b] over its leading axis, at (k, j): the initial value plus the n entries there. -/
theorem sum_stack_apply {n a b : ℕ} {φ : FTy} {u : Shape} (x : FVec Ideal (⟨3, ![n, a, b]⟩ : Shape) φ) (init : u.Idx → Ideal φ)
    (h' : (⟨3, ![n, a, b]⟩ : Shape).ReducesTo [0] ⟨2, ![a, b]⟩) (h : (⟨3, ![n, a, b]⟩ : Shape).Reduces [0] ⟨2, ![a, b]⟩)
    (hu : 0 < u.numel) (k : Fin a) (j : Fin b) :
    Host.reduceAdd x init h' hu (ix2 k j) = init (Shape.Idx.first hu) + ∑ i : Fin n, x (ix3 i k j) := by
  rw [hostReduceAdd_apply, Ideal.hostReduceAdd_single h' h]
  refine congrArg (init (Shape.Idx.first hu) + ·) (Finset.sum_congr rfl fun i _ => congrArg x ?_)
  funext d
  match d with
  | ⟨0, _⟩ => rfl
  | ⟨1, _⟩ => rfl
  | ⟨2, _⟩ => rfl

/-- The host's sum of the rows of an [n, b] matrix, at j: the initial value plus the n entries of column j. -/
theorem sum_rows_apply {n b : ℕ} {φ : FTy} {u : Shape} (x : FVec Ideal (⟨2, ![n, b]⟩ : Shape) φ) (init : u.Idx → Ideal φ)
    (h' : (⟨2, ![n, b]⟩ : Shape).ReducesTo [0] ⟨1, ![b]⟩) (h : (⟨2, ![n, b]⟩ : Shape).Reduces [0] ⟨1, ![b]⟩)
    (hu : 0 < u.numel) (j : Fin b) :
    Host.reduceAdd x init h' hu (ix1 j) = init (Shape.Idx.first hu) + ∑ i : Fin n, x (ix2 i j) := by
  rw [hostReduceAdd_apply, Ideal.hostReduceAdd_single h' h]
  refine congrArg (init (Shape.Idx.first hu) + ·) (Finset.sum_congr rfl fun i _ => congrArg x ?_)
  funext d
  match d with
  | ⟨0, _⟩ => rfl
  | ⟨1, _⟩ => rfl

/-- Two matrices stacked along the rows, read in the upper one. -/
theorem stack_upper {a1 a2 A b : ℕ} (x1 : (⟨2, ![a1, b]⟩ : Shape).Idx → α) (x2 : (⟨2, ![a2, b]⟩ : Shape).Idx → α)
    (h : Shape.Concatenates [(⟨2, ![a1, b]⟩ : Shape), ⟨2, ![a2, b]⟩] ⟨2, ![A, b]⟩ 0) (r : Fin A) (k : Fin a1) (hk : k.val = r.val) (j : Fin b) :
    concatenate ⟨2, ![A, b]⟩ 0 [⟨⟨2, ![a1, b]⟩, x1⟩, ⟨⟨2, ![a2, b]⟩, x2⟩] h (ix2 r j) = x1 (ix2 k j) := by
  refine concatenate_pair_apply_left 0 x1 x2 h (ix2 r j) rfl (ix2 k j) (fun x => ?_)
  match x with
  | ⟨0, _⟩ => exact hk
  | ⟨1, _⟩ => rfl

/-- Two matrices stacked along the rows, read in the lower one. -/
theorem stack_lower {a1 a2 A b : ℕ} (x1 : (⟨2, ![a1, b]⟩ : Shape).Idx → α) (x2 : (⟨2, ![a2, b]⟩ : Shape).Idx → α)
    (h : Shape.Concatenates [(⟨2, ![a1, b]⟩ : Shape), ⟨2, ![a2, b]⟩] ⟨2, ![A, b]⟩ 0) (r : Fin A) (k : Fin a2) (hk : k.val + a1 = r.val) (j : Fin b) :
    concatenate ⟨2, ![A, b]⟩ 0 [⟨⟨2, ![a1, b]⟩, x1⟩, ⟨⟨2, ![a2, b]⟩, x2⟩] h (ix2 r j) = x2 (ix2 k j) := by
  refine concatenate_pair_apply_right 0 x1 x2 h (ix2 r j) rfl rfl (ix2 k j) (fun x hx => ?_) hk
  match x with
  | ⟨0, _⟩ => exact absurd rfl hx
  | ⟨1, _⟩ => rfl

end Idealize.ShloMosaic.ChebLayout

end
-- ==== Proof.LibChebHost.lean ====
/-
  A Chebyshev layer and the final projection as a host program spells them, on the extended reals.

  The host takes matrix o of the weight stack [3, K, N] by a slice to [1, K, N] viewed as [K, N], multiplies the three
  feature arrays with a `dot_general` each (the third after forming 2·p − x with the two splatted from a scalar), adds the
  three products in order, lays the bias along the rows in two broadcast steps, and takes the maximum with a splatted
  zero. Entry by entry that is the layer of the whole arrays; the projection is one `dot_general` plus the bias laid
  along the rows.
-/
import proofs.«169452_j7576322310704_1_alg».proof.Proof.LibChebRow
import proofs.«169452_j7576322310704_1_alg».proof.Proof.LibChebLayout

noncomputable section

open scoped BigOperators

namespace Cert.Bridge.ChebHost

open Idealize.ShloMosaic Idealize.ShloMosaic.ValueIdx Cert.Bridge.ChebRow

variable {n K N : ℕ}

/-- The host's layer is the layer of the whole arrays. -/
theorem host_layer_eq {D : DotDims (⟨2, ![n, K]⟩ : Shape) (⟨2, ![K, N]⟩ : Shape) (⟨2, ![n, N]⟩ : Shape)}
    (hD : DenseVec.Plain D)
    (x t p : FVec Ideal (⟨2, ![n, K]⟩ : Shape) .f32) (w : FVec Ideal (⟨3, ![3, K, N]⟩ : Shape) .f32)
    (b : FVec Ideal (⟨1, ![N]⟩ : Shape) .f32)
    (hs0 : (⟨3, ![3, K, N]⟩ : Shape).Slices ![0, 0, 0] ⟨3, ![1, K, N]⟩)
    (hs1 : (⟨3, ![3, K, N]⟩ : Shape).Slices ![1, 0, 0] ⟨3, ![1, K, N]⟩)
    (hs2 : (⟨3, ![3, K, N]⟩ : Shape).Slices ![2, 0, 0] ⟨3, ![1, K, N]⟩)
    (hc : (⟨3, ![1, K, N]⟩ : Shape).ShapeCasts ⟨2, ![K, N]⟩)
    (h1 : (⟨1, ![N]⟩ : Shape).BroadcastsInDim ⟨2, ![1, N]⟩ ![1])
    (h2 : (⟨2, ![1, N]⟩ : Shape).BroadcastsInDim ⟨2, ![n, N]⟩ ![0, 1])
    (hz : (⟨0, ![]⟩ : Shape).BroadcastsInDim ⟨2, ![n, N]⟩ ![])
    (hz' : (⟨0, ![]⟩ : Shape).BroadcastsInDim ⟨2, ![n, K]⟩ ![]) :
    maximumf (addf (addf (addf
          (Host.dotGeneral D none x (shapeCast ⟨2, ![K, N]⟩ (extractStridedSlice ⟨3, ![1, K, N]⟩ ![0, 0, 0] w hs0) hc))
          (Host.dotGeneral D none t (shapeCast ⟨2, ![K, N]⟩ (extractStridedSlice ⟨3, ![1, K, N]⟩ ![1, 0, 0] w hs1) hc)))
          (Host.dotGeneral D none
            (subf (mulf (DenseVec.splat (F := Ideal) (φ := .f32) hz' 0x40000000#32) p) x)
            (shapeCast ⟨2, ![K, N]⟩ (extractStridedSlice ⟨3, ![1, K, N]⟩ ![2, 0, 0] w hs2) hc)))
        (DenseVec.spreadCols h1 h2 b))
      (DenseVec.splat (F := Ideal) (φ := .f32) hz 0x00000000#32)
    = chebLayer x t p w b := by
  funext i
  obtain ⟨r, j, rfl⟩ : ∃ (r : Fin n) (j : Fin N), i = ix2 r j := ⟨i 0, i 1, eq_ix2 i⟩
  rw [maximumf_apply, addf_apply, addf_apply, addf_apply, DenseVec.dotGeneral_ix2 hD, DenseVec.dotGeneral_ix2 hD,
    DenseVec.dotGeneral_ix2 hD, DenseVec.spreadCols_apply, DenseVec.splat_apply]
  show _ = chebEntry _ _ _ _ _ _ _
  unfold chebEntry
  refine congrArg (fun s => max (s + b (ix1 j)) zero) ?_
  refine congrArg₂ (· + ·) (congrArg₂ (· + ·) ?_ ?_) ?_
  · exact Finset.sum_congr rfl fun k _ => congrArg (x (ix2 r k) * ·) (ChebLayout.mat_of_stack 0 (by decide) w hs0 hc k j)
  · exact Finset.sum_congr rfl fun k _ => congrArg (t (ix2 r k) * ·) (ChebLayout.mat_of_stack 1 (by decide) w hs1 hc k j)
  · exact Finset.sum_congr rfl fun k _ => congrArg ((two * p (ix2 r k) - x (ix2 r k)) * ·)
      (ChebLayout.mat_of_stack 2 (by decide) w hs2 hc k j)

/-- The host's projection is the projection of the whole arrays. -/
theorem host_project_eq {D : DotDims (⟨2, ![n, K]⟩ : Shape) (⟨2, ![K, N]⟩ : Shape) (⟨2, ![n, N]⟩ : Shape)}
    (hD : DenseVec.Plain D) (h : FVec Ideal (⟨2, ![n, K]⟩ : Shape) .f32) (w : FVec Ideal (⟨2, ![K, N]⟩ : Shape) .f32)
    (b : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![n, N]⟩ ![0, 1]) :
    addf (Host.dotGeneral D none h w) (DenseVec.spreadCols h1 h2 b) = project h w b := by
  funext i
  obtain ⟨r, j, rfl⟩ : ∃ (r : Fin n) (j : Fin N), i = ix2 r j := ⟨i 0, i 1, eq_ix2 i⟩
  rw [addf_apply, DenseVec.dotGeneral_ix2 hD, DenseVec.spreadCols_apply]
  rfl

end Cert.Bridge.ChebHost

end
-- ==== Proof.RefLayers.lean ====
/-
  The reference program's stages as layers, projections and propagations of whole arrays.

  The reference computes the edge weights once, then for each of the two layers the once- and twice-propagated features
  (a gather of rows at the edges' source nodes, scaled by the edge weight, added into the rows of the edges' target
  nodes), the layer itself with `dot_general`s against the three matrices of the weight stack, and at the end the
  projection. Here each such stage is named as ONE function of the arrays it is computed from: a propagation step as a
  function of the edge list and the feature array, a layer as the layer of its three feature arrays. The propagation
  steps are never opened: which rows an edge reads and writes stays inside the function.
-/
import proofs.«169452_j7576322310704_1_alg».proof.Proof.RefRead
import proofs.«169452_j7576322310704_1_alg».proof.Proof.LibChebHost

noncomputable section

namespace Cert.ReferenceIdeal.Layers

open Cert.ReferenceIdeal Cert.ReferenceIdeal.Gen Cert.ReferenceIdeal.ReadP
open Idealize.ShloMosaic Idealize.ShloMosaic.TcCoe Idealize.ShloMosaic.ValueIdx Idealize.SL.Sem
open Cert.Bridge.ChebRow Cert.Bridge.ChebHost

/-- The first layer's product contracts the one feature column with the weight row. -/
theorem plain1 : DenseVec.Plain (n := 100000) (K := 1) (N := 32) dot_S100000x1_S1x32_S100000x32_1_0_0_1_n_n where
  rank := rfl
  size := fun _ => rfl
  lhs := rfl
  rhs := rfl
  row := fun j q => by
    unfold DotDims.lhsIdx
    rw [dif_neg (show ¬(0 : Fin S100000x1.rank) ∈ dot_S100000x1_S1x32_S100000x32_1_0_0_1_n_n.lhsBatch by decide),
      dif_pos (show (0 : Fin S100000x1.rank) ∈ dot_S100000x1_S1x32_S100000x32_1_0_0_1_n_n.lhsNonContracting by decide)]
    rfl
  col := fun j q => by
    unfold DotDims.rhsIdx
    rw [dif_neg (show ¬(1 : Fin S1x32.rank) ∈ dot_S100000x1_S1x32_S100000x32_1_0_0_1_n_n.rhsBatch by decide),
      dif_pos (show (1 : Fin S1x32.rank) ∈ dot_S100000x1_S1x32_S100000x32_1_0_0_1_n_n.rhsNonContracting by decide)]
    rfl

/-- The second layer's product contracts the 32 feature columns with the weight matrix's rows. -/
theorem plain2 : DenseVec.Plain (n := 100000) (K := 32) (N := 32) dot_S100000x32_S32x32_S100000x32_1_0_0_1_n_n where
  rank := rfl
  size := fun _ => rfl
  lhs := rfl
  rhs := rfl
  row := fun j q => by
    unfold DotDims.lhsIdx
    rw [dif_neg (show ¬(0 : Fin S100000x32.rank) ∈ dot_S100000x32_S32x32_S100000x32_1_0_0_1_n_n.lhsBatch by decide),
      dif_pos (show (0 : Fin S100000x32.rank) ∈ dot_S100000x32_S32x32_S100000x32_1_0_0_1_n_n.lhsNonContracting by decide)]
    rfl
  col := fun j q => by
    unfold DotDims.rhsIdx
    rw [dif_neg (show ¬(1 : Fin S32x32.rank) ∈ dot_S100000x32_S32x32_S100000x32_1_0_0_1_n_n.rhsBatch by decide),
      dif_pos (show (1 : Fin S32x32.rank) ∈ dot_S100000x32_S32x32_S100000x32_1_0_0_1_n_n.rhsNonContracting by decide)]
    rfl

/-- The projection contracts the hidden row's 32 entries with the projection column. -/
theorem plainFc : DenseVec.Plain (n := 100000) (K := 32) (N := 1) dot_S100000x32_S32x1_S100000x1_1_0_0_1_n_n where
  rank := rfl
  size := fun _ => rfl
  lhs := rfl
  rhs := rfl
  row := fun j q => by
    unfold DotDims.lhsIdx
    rw [dif_neg (show ¬(0 : Fin S100000x32.rank) ∈ dot_S100000x32_S32x1_S100000x1_1_0_0_1_n_n.lhsBatch by decide),
      dif_pos (show (0 : Fin S100000x32.rank) ∈ dot_S100000x32_S32x1_S100000x1_1_0_0_1_n_n.lhsNonContracting by decide)]
    rfl
  col := fun j q => by
    unfold DotDims.rhsIdx
    rw [dif_neg (show ¬(1 : Fin S32x1.rank) ∈ dot_S100000x32_S32x1_S100000x1_1_0_0_1_n_n.rhsBatch by decide),
      dif_pos (show (1 : Fin S32x1.rank) ∈ dot_S100000x32_S32x1_S100000x1_1_0_0_1_n_n.rhsNonContracting by decide)]
    rfl

/-- One propagation step of a one-column feature array y along the edge list e: each edge gathers y at its source
    node, scales it by the edge's weight and adds it into its target node's row, from zero. -/
def spread1 (e : (⟨S2x2000000, .i32⟩ : BufTy).Contents (Elt Ideal)) (y : FVec Ideal S100000x1 .f32) : FVec Ideal S100000x1 .f32 :=
  Host.scatterAdd (F := Ideal) scatter_S100000x1_S2000000x1_S2000000x1_1_0_0_1 (val_main_v43 (F := Ideal)) (val_main_v44 (F := Ideal) e)
    (mulf (F := Ideal) (val_main_v34 (F := Ideal) e)
      (Host.gather gather_S100000x1_S2000000x1_S2000000x1_1_0_n_n_0_1_11 y (val_main_v40 (F := Ideal) e)))

/-- One propagation step of a 32-column feature array. -/
def spread32 (e : (⟨S2x2000000, .i32⟩ : BufTy).Contents (Elt Ideal)) (y : FVec Ideal S100000x32 .f32) : FVec Ideal S100000x32 .f32 :=
  Host.scatterAdd (F := Ideal) scatter_S100000x32_S2000000x1_S2000000x32_1_0_0_1 (val_main_v86 (F := Ideal)) (val_main_v87 (F := Ideal) e)
    (mulf (F := Ideal) (val_main_v84 (F := Ideal) e)
      (Host.gather gather_S100000x32_S2000000x1_S2000000x32_1_0_n_n_0_1_132 y (val_main_v82 (F := Ideal) e)))

variable (x0 : (⟨S100000x1, .f32⟩ : BufTy).Contents (Elt Ideal)) (x1 : (⟨S2x2000000, .i32⟩ : BufTy).Contents (Elt Ideal)) (x2 : (⟨S3x1x32, .f32⟩ : BufTy).Contents (Elt Ideal))
  (x3 : (⟨S32, .f32⟩ : BufTy).Contents (Elt Ideal)) (x4 : (⟨S3x32x32, .f32⟩ : BufTy).Contents (Elt Ideal)) (x5 : (⟨S32, .f32⟩ : BufTy).Contents (Elt Ideal)) (x6 : (⟨S32x1, .f32⟩ : BufTy).Contents (Elt Ideal))
  (x7 : (⟨S1, .f32⟩ : BufTy).Contents (Elt Ideal))

/-- The once-propagated input features. -/
theorem once1 : val_main_v45 (F := Ideal) x0 x1 = spread1 x1 x0 := rfl
/-- The twice-propagated input features: the same step applied to the once-propagated ones. -/
theorem twice1 : val_main_v61 (F := Ideal) x0 x1 = spread1 x1 (val_main_v45 (F := Ideal) x0 x1) := rfl
/-- The once-propagated hidden features. -/
theorem once32 : val_main_v88 (F := Ideal) x0 x1 x2 x3 = spread32 x1 (val_main_v72 (F := Ideal) x0 x1 x2 x3) := rfl
/-- The twice-propagated hidden features. -/
theorem twice32 : val_main_v105 (F := Ideal) x0 x1 x2 x3 = spread32 x1 (val_main_v88 (F := Ideal) x0 x1 x2 x3) := rfl

/-- The first hidden array is the layer of the input features and their two propagated forms. -/
theorem hidden1 : val_main_v72 (F := Ideal) x0 x1 x2 x3
    = chebLayer (n := 100000) (K := 1) (N := 32) x0 (val_main_v45 (F := Ideal) x0 x1) (val_main_v61 (F := Ideal) x0 x1) x2 x3 :=
  host_layer_eq (n := 100000) (K := 1) (N := 32) plain1 x0 (val_main_v45 (F := Ideal) x0 x1) (val_main_v61 (F := Ideal) x0 x1) x2 x3
    _ _ _ _ _ _ _ _

/-- The second hidden array is the layer of the first and its two propagated forms. -/
theorem hidden2 : val_main_v116 (F := Ideal) x0 x1 x2 x3 x4 x5
    = chebLayer (n := 100000) (K := 32) (N := 32) (val_main_v72 (F := Ideal) x0 x1 x2 x3) (val_main_v88 (F := Ideal) x0 x1 x2 x3)
        (val_main_v105 (F := Ideal) x0 x1 x2 x3) x4 x5 :=
  host_layer_eq (n := 100000) (K := 32) (N := 32) plain2 (val_main_v72 (F := Ideal) x0 x1 x2 x3) (val_main_v88 (F := Ideal) x0 x1 x2 x3)
    (val_main_v105 (F := Ideal) x0 x1 x2 x3) x4 x5 _ _ _ _ _ _ _ _

/-- The result is the projection of the second hidden array. -/
theorem result : val_main_v120 (F := Ideal) x0 x1 x2 x3 x4 x5 x6 x7
    = project (n := 100000) (K := 32) (N := 1) (val_main_v116 (F := Ideal) x0 x1 x2 x3 x4 x5) x6 x7 :=
  host_project_eq (n := 100000) (K := 32) (N := 1) plainFc (val_main_v116 (F := Ideal) x0 x1 x2 x3 x4 x5) x6 x7 _ _

/-- The whole network as one function of the eight arguments: the first hidden array from the input features and their
    two propagated forms, the second from the first and its two propagated forms, and its projection. -/
def model (a0 : FVec Ideal S100000x1 .f32) (a1 : (⟨S2x2000000, .i32⟩ : BufTy).Contents (Elt Ideal)) (a2 : FVec Ideal S3x1x32 .f32)
    (a3 : FVec Ideal S32 .f32) (a4 : FVec Ideal S3x32x32 .f32) (a5 : FVec Ideal S32 .f32) (a6 : FVec Ideal S32x1 .f32)
    (a7 : FVec Ideal S1 .f32) : FVec Ideal S100000x1 .f32 :=
  project (n := 100000) (K := 32) (N := 1)
    (chebLayer (n := 100000) (K := 32) (N := 32)
      (chebLayer (n := 100000) (K := 1) (N := 32) a0 (spread1 a1 a0) (spread1 a1 (spread1 a1 a0)) a2 a3)
      (spread32 a1 (chebLayer (n := 100000) (K := 1) (N := 32) a0 (spread1 a1 a0) (spread1 a1 (spread1 a1 a0)) a2 a3))
      (spread32 a1 (spread32 a1 (chebLayer (n := 100000) (K := 1) (N := 32) a0 (spread1 a1 a0) (spread1 a1 (spread1 a1 a0)) a2 a3)))
      a4 a5)
    a6 a7

/-- The reference's result is the network of its arguments. -/
theorem result_model : val_main_v120 (F := Ideal) x0 x1 x2 x3 x4 x5 x6 x7 = model x0 x1 x2 x3 x4 x5 x6 x7 := by
  rw [result, hidden2, twice32, once32, hidden1, twice1, once1]
  rfl

end Cert.ReferenceIdeal.Layers

end
-- ==== Proof.KernelHost.lean ====
/-
  What the kernel program's host stretches leave in the buffers its two fused layers read.

  Before the first region the host computes the edge weights from the edge list and propagates the input features once
  and twice; between the regions it propagates the first region's output once and twice. These are the reference's own
  operations on the same edge list, so each buffer holds the reference's stage of the same arguments: the edge weights
  and the two index vectors are the reference's, a propagated array is the reference's propagation step applied to the
  array it was propagated from, and a buffer no host operation writes keeps what it held. Each stretch is read at an
  arbitrary contents of the buffers it starts from, given what those contents are at the few buffers it reads.
-/
import proofs.«169452_j7576322310704_1_alg».proof.Proof.Gen.KernelIdeal.Frame
import proofs.«169452_j7576322310704_1_alg».proof.Proof.RefLayers

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

/-! ## Each stretch at arbitrary starting contents -/

section AtAnyContents

variable (U : Valuation τ sig (Elt Ideal))

/-- The outlined selection: where the degree is positive its inverse square root, elsewhere the scalar zero spread. -/
theorem selection_at : StableHlo.after (hostOps0_1 (F := Ideal)) U (Proc.devRef .tc main_v13)
    = select (U (Proc.devRef .tc main_v9)) (U (Proc.devRef .tc main_v12))
        (broadcastInDim S100000 ![] bcast_S_S100000 (id (U (Proc.devRef .tc main_cst_3)))) := by
  after_results_simp
  rfl

variable (x0 : (⟨Cert.ReferenceIdeal.S100000x1, .f32⟩ : BufTy).Contents (Elt Ideal)) (x1 : (⟨Cert.ReferenceIdeal.S2x2000000, .i32⟩ : BufTy).Contents (Elt Ideal))

/-- The edge weights, from the selected inverse square roots, the two index vectors and the vector of ones. -/
theorem weights_at (h13 : U (Proc.devRef .tc main_v13) = Cert.ReferenceIdeal.ReadP.val_main_v13 (F := Ideal) x1)
    (h1 : U (Proc.devRef .tc main_v1) = Cert.ReferenceIdeal.ReadP.val_main_v1 (F := Ideal) x1) (h3 : U (Proc.devRef .tc main_v3) = Cert.ReferenceIdeal.ReadP.val_main_v3 (F := Ideal) x1)
    (h4 : U (Proc.devRef .tc main_v4) = Cert.ReferenceIdeal.ReadP.val_main_v4 (F := Ideal)) :
    StableHlo.after (hostOps0_2 (F := Ideal)) U (Proc.devRef .tc main_v30) = Cert.ReferenceIdeal.ReadP.val_main_v30 (F := Ideal) x1 := by
  after_results_simp
  rw [h13, h1, h3, h4]
  rfl

/-- The once-propagated input features. -/
theorem once1_at (h13 : U (Proc.devRef .tc main_v13) = Cert.ReferenceIdeal.ReadP.val_main_v13 (F := Ideal) x1)
    (h1 : U (Proc.devRef .tc main_v1) = Cert.ReferenceIdeal.ReadP.val_main_v1 (F := Ideal) x1) (h3 : U (Proc.devRef .tc main_v3) = Cert.ReferenceIdeal.ReadP.val_main_v3 (F := Ideal) x1)
    (h4 : U (Proc.devRef .tc main_v4) = Cert.ReferenceIdeal.ReadP.val_main_v4 (F := Ideal)) (h0 : U (Proc.devRef .tc main_arg0) = x0) :
    StableHlo.after (hostOps0_2 (F := Ideal)) U (Proc.devRef .tc main_v42) = Cert.ReferenceIdeal.Layers.spread1 x1 x0 := by
  after_results_simp
  rw [h13, h1, h3, h4, h0]
  rfl

/-- The twice-propagated input features. -/
theorem twice1_at (h13 : U (Proc.devRef .tc main_v13) = Cert.ReferenceIdeal.ReadP.val_main_v13 (F := Ideal) x1)
    (h1 : U (Proc.devRef .tc main_v1) = Cert.ReferenceIdeal.ReadP.val_main_v1 (F := Ideal) x1) (h3 : U (Proc.devRef .tc main_v3) = Cert.ReferenceIdeal.ReadP.val_main_v3 (F := Ideal) x1)
    (h4 : U (Proc.devRef .tc main_v4) = Cert.ReferenceIdeal.ReadP.val_main_v4 (F := Ideal)) (h0 : U (Proc.devRef .tc main_arg0) = x0) :
    StableHlo.after (hostOps0_2 (F := Ideal)) U (Proc.devRef .tc main_v54) = Cert.ReferenceIdeal.Layers.spread1 x1 (Cert.ReferenceIdeal.Layers.spread1 x1 x0) := by
  after_results_simp
  rw [h13, h1, h3, h4, h0]
  rfl

/-- The index vectors pass through the third stretch. -/
theorem sources_at : StableHlo.after (hostOps0_2 (F := Ideal)) U (Proc.devRef .tc main_v1) = U (Proc.devRef .tc main_v1) := by
  after_results_simp
theorem targets_at : StableHlo.after (hostOps0_2 (F := Ideal)) U (Proc.devRef .tc main_v3) = U (Proc.devRef .tc main_v3) := by
  after_results_simp

variable (y : FVec Ideal Cert.ReferenceIdeal.S100000x32 .f32)

/-- The once-propagated hidden features, from the edge weights, the index vectors and the hidden array. -/
theorem once32_at (h30 : U (Proc.devRef .tc main_v30) = Cert.ReferenceIdeal.ReadP.val_main_v30 (F := Ideal) x1)
    (h1 : U (Proc.devRef .tc main_v1) = Cert.ReferenceIdeal.ReadP.val_main_v1 (F := Ideal) x1) (h3 : U (Proc.devRef .tc main_v3) = Cert.ReferenceIdeal.ReadP.val_main_v3 (F := Ideal) x1)
    (h55 : U (Proc.devRef .tc main_v55) = y) :
    StableHlo.after (hostOps1 (F := Ideal)) U (Proc.devRef .tc main_v68) = Cert.ReferenceIdeal.Layers.spread32 x1 y := by
  after_results_simp
  rw [h30, h1, h3, h55]
  rfl

/-- The twice-propagated hidden features. -/
theorem twice32_at (h30 : U (Proc.devRef .tc main_v30) = Cert.ReferenceIdeal.ReadP.val_main_v30 (F := Ideal) x1)
    (h1 : U (Proc.devRef .tc main_v1) = Cert.ReferenceIdeal.ReadP.val_main_v1 (F := Ideal) x1) (h3 : U (Proc.devRef .tc main_v3) = Cert.ReferenceIdeal.ReadP.val_main_v3 (F := Ideal) x1)
    (h55 : U (Proc.devRef .tc main_v55) = y) :
    StableHlo.after (hostOps1 (F := Ideal)) U (Proc.devRef .tc main_v81) = Cert.ReferenceIdeal.Layers.spread32 x1 (Cert.ReferenceIdeal.Layers.spread32 x1 y) := by
  after_results_simp
  rw [h30, h1, h3, h55]
  rfl

/-- The hidden array and the second region's argument arrays pass through the stretch between the regions. -/
theorem hidden_at : StableHlo.after (hostOps1 (F := Ideal)) U (Proc.devRef .tc main_v55) = U (Proc.devRef .tc main_v55) := by
  after_results_simp
theorem arg4_at : StableHlo.after (hostOps1 (F := Ideal)) U (Proc.devRef .tc main_arg4) = U (Proc.devRef .tc main_arg4) := by
  after_results_simp
theorem arg5_at : StableHlo.after (hostOps1 (F := Ideal)) U (Proc.devRef .tc main_arg5) = U (Proc.devRef .tc main_arg5) := by
  after_results_simp
theorem arg6_at : StableHlo.after (hostOps1 (F := Ideal)) U (Proc.devRef .tc main_arg6) = U (Proc.devRef .tc main_arg6) := by
  after_results_simp
theorem arg7_at : StableHlo.after (hostOps1 (F := Ideal)) U (Proc.devRef .tc main_arg7) = U (Proc.devRef .tc main_arg7) := by
  after_results_simp

end AtAnyContents

variable (m : (ℓ : Loc nD τ sig) → Buf (Elt Ideal) ℓ) (ρ : Dev nD → PrngReg) (c : Dev nD)

/-! ## After the first stretch -/

theorem positive1 : W1 m ρ c (Proc.devRef .tc main_v9) = Cert.ReferenceIdeal.ReadP.val_main_v9 (F := Ideal) (m ((c : Thread nD τ).loc main_arg1)) := by
  show StableHlo.after hostOps0 (W0 m ρ c) (Proc.devRef .tc main_v9) = _
  after_results_simp
  rfl
theorem inverse1 : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  after_results_simp
  rfl
theorem zero1 : W1 m ρ c (Proc.devRef .tc main_cst_3) = Cert.ReferenceIdeal.ReadP.val_main_cst_3 (F := Ideal) := by
  show StableHlo.after hostOps0 (W0 m ρ c) (Proc.devRef .tc main_cst_3) = _
  after_results_simp
  rfl

/-! ## After the outlined selection -/

/-- The selected inverse square roots of the degrees are the reference's. -/
theorem selected2 : W2 m ρ c (Proc.devRef .tc main_v13) = Cert.ReferenceIdeal.ReadP.val_main_v13 (F := Ideal) (m ((c : Thread nD τ).loc main_arg1)) := by
  refine (selection_at (W1 m ρ c)).trans ?_
  rw [positive1, inverse1, zero1]
  rfl
theorem sources2 : W2 m ρ c (Proc.devRef .tc main_v1) = Cert.ReferenceIdeal.ReadP.val_main_v1 (F := Ideal) (m ((c : Thread nD τ).loc main_arg1)) := by
  show StableHlo.after hostOps0_1 (StableHlo.after hostOps0 (W0 m ρ c)) (Proc.devRef .tc main_v1) = _
  after_results_simp
  rfl
theorem targets2 : W2 m ρ c (Proc.devRef .tc main_v3) = Cert.ReferenceIdeal.ReadP.val_main_v3 (F := Ideal) (m ((c : Thread nD τ).loc main_arg1)) := by
  show StableHlo.after hostOps0_1 (StableHlo.after hostOps0 (W0 m ρ c)) (Proc.devRef .tc main_v3) = _
  after_results_simp
  rfl
theorem ones2 : W2 m ρ c (Proc.devRef .tc main_v4) = Cert.ReferenceIdeal.ReadP.val_main_v4 (F := Ideal) := by
  show StableHlo.after hostOps0_1 (StableHlo.after hostOps0 (W0 m ρ c)) (Proc.devRef .tc main_v4) = _
  after_results_simp
  rfl
theorem features2 : W2 m ρ c (Proc.devRef .tc main_arg0) = (m ((c : Thread nD τ).loc main_arg0)) := by
  show StableHlo.after hostOps0_1 (StableHlo.after hostOps0 (W0 m ρ c)) (Proc.devRef .tc main_arg0) = _
  after_results_simp

/-! ## Before the first region -/

/-- The edge weights are the reference's stage of the edge list. -/
theorem weights : W3 m ρ c (Proc.devRef .tc main_v30) = Cert.ReferenceIdeal.ReadP.val_main_v30 (F := Ideal) (m ((c : Thread nD τ).loc main_arg1)) :=
  weights_at (W2 m ρ c) (m ((c : Thread nD τ).loc main_arg1)) (selected2 m ρ c) (sources2 m ρ c) (targets2 m ρ c) (ones2 m ρ c)
/-- The edges' source nodes. -/
theorem sources : W3 m ρ c (Proc.devRef .tc main_v1) = Cert.ReferenceIdeal.ReadP.val_main_v1 (F := Ideal) (m ((c : Thread nD τ).loc main_arg1)) :=
  (sources_at (W2 m ρ c)).trans (sources2 m ρ c)
/-- The edges' target nodes. -/
theorem targets : W3 m ρ c (Proc.devRef .tc main_v3) = Cert.ReferenceIdeal.ReadP.val_main_v3 (F := Ideal) (m ((c : Thread nD τ).loc main_arg1)) :=
  (targets_at (W2 m ρ c)).trans (targets2 m ρ c)
/-- The once-propagated input features. -/
theorem once1 : W3 m ρ c (Proc.devRef .tc main_v42) = Cert.ReferenceIdeal.Layers.spread1 (m ((c : Thread nD τ).loc main_arg1)) (m ((c : Thread nD τ).loc main_arg0)) :=
  once1_at (W2 m ρ c) (m ((c : Thread nD τ).loc main_arg0)) (m ((c : Thread nD τ).loc main_arg1)) (selected2 m ρ c) (sources2 m ρ c) (targets2 m ρ c) (ones2 m ρ c)
    (features2 m ρ c)
/-- The twice-propagated input features. -/
theorem twice1 : W3 m ρ c (Proc.devRef .tc main_v54)
    = Cert.ReferenceIdeal.Layers.spread1 (m ((c : Thread nD τ).loc main_arg1)) (Cert.ReferenceIdeal.Layers.spread1 (m ((c : Thread nD τ).loc main_arg1)) (m ((c : Thread nD τ).loc main_arg0))) :=
  twice1_at (W2 m ρ c) (m ((c : Thread nD τ).loc main_arg0)) (m ((c : Thread nD τ).loc main_arg1)) (selected2 m ρ c) (sources2 m ρ c) (targets2 m ρ c) (ones2 m ρ c)
    (features2 m ρ c)

/-! The argument arrays are written by no stretch before the first region. -/

theorem kept_main_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp

theorem kept_main_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp

theorem kept_main_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp

theorem kept_main_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp

theorem kept_main_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp

theorem kept_main_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp

theorem kept_main_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp

/-! ## Between the regions -/

/-- A buffer that is not one of the first region's arrays holds after it what it held before. -/
theorem across0 (b : Ref sig .tc) (hb : ∀ w, Pipeline.arrRef spec0 w ≠ b) :
    W4 m ρ c (Proc.devRef .tc b) = W3 m ρ c (Proc.devRef .tc b) := W4_of_ne m ρ c b hb

/-- The first region's output is not written by the stretch between the regions. -/
theorem hidden_kept : W5 m ρ c (Proc.devRef .tc main_v55) = W4 m ρ c (Proc.devRef .tc main_v55) := hidden_at (W4 m ρ c)

/-- The once-propagated hidden features: the propagation step applied to the first region's output. -/
theorem once32 : W5 m ρ c (Proc.devRef .tc main_v68) = Cert.ReferenceIdeal.Layers.spread32 (m ((c : Thread nD τ).loc main_arg1)) (W4 m ρ c (Proc.devRef .tc main_v55)) :=
  once32_at (W4 m ρ c) (m ((c : Thread nD τ).loc main_arg1)) (W4 m ρ c (Proc.devRef .tc main_v55))
    ((across0 m ρ c main_v30 (by decide)).trans (weights m ρ c)) ((across0 m ρ c main_v1 (by decide)).trans (sources m ρ c))
    ((across0 m ρ c main_v3 (by decide)).trans (targets m ρ c)) rfl

/-- The twice-propagated hidden features. -/
theorem twice32 : W5 m ρ c (Proc.devRef .tc main_v81)
    = Cert.ReferenceIdeal.Layers.spread32 (m ((c : Thread nD τ).loc main_arg1)) (Cert.ReferenceIdeal.Layers.spread32 (m ((c : Thread nD τ).loc main_arg1)) (W4 m ρ c (Proc.devRef .tc main_v55))) :=
  twice32_at (W4 m ρ c) (m ((c : Thread nD τ).loc main_arg1)) (W4 m ρ c (Proc.devRef .tc main_v55))
    ((across0 m ρ c main_v30 (by decide)).trans (weights m ρ c)) ((across0 m ρ c main_v1 (by decide)).trans (sources m ρ c))
    ((across0 m ρ c main_v3 (by decide)).trans (targets m ρ c)) rfl

/-- The second region's argument arrays hold, at its entry, what was launched. -/
theorem launched4 : W5 m ρ c (Proc.devRef .tc main_arg4) = (m ((c : Thread nD τ).loc main_arg4)) :=
  (arg4_at (W4 m ρ c)).trans ((across0 m ρ c main_arg4 (by decide)).trans (kept_main_arg4 m ρ c))
theorem launched5 : W5 m ρ c (Proc.devRef .tc main_arg5) = (m ((c : Thread nD τ).loc main_arg5)) :=
  (arg5_at (W4 m ρ c)).trans ((across0 m ρ c main_arg5 (by decide)).trans (kept_main_arg5 m ρ c))
theorem launched6 : W5 m ρ c (Proc.devRef .tc main_arg6) = (m ((c : Thread nD τ).loc main_arg6)) :=
  (arg6_at (W4 m ρ c)).trans ((across0 m ρ c main_arg6 (by decide)).trans (kept_main_arg6 m ρ c))
theorem launched7 : W5 m ρ c (Proc.devRef .tc main_arg7) = (m ((c : Thread nD τ).loc main_arg7)) :=
  (arg7_at (W4 m ρ c)).trans ((across0 m ρ c main_arg7 (by decide)).trans (kept_main_arg7 m ρ c))

end Cert.KernelIdeal.HostSide

end
-- ==== Proof.KernelValue.lean ====
/-
  The kernel program's result as the network of its arguments.

  When the run ends the result array holds what the second region's write-backs leave: the projected layer of the arrays
  that region finds. Those are the first region's output — the layer of the input features and their two propagated
  forms — and that output propagated once and twice by the host, with the weights and biases as launched. Substituting
  one into the other gives the network as one function of the eight launch arguments.
-/
import proofs.«169452_j7576322310704_1_alg».proof.Proof.KernelRun
import proofs.«169452_j7576322310704_1_alg».proof.Proof.Layer1Value
import proofs.«169452_j7576322310704_1_alg».proof.Proof.Layer2Value
import proofs.«169452_j7576322310704_1_alg».proof.Proof.KernelHost

set_option maxRecDepth 16384

noncomputable section

namespace Cert.KernelIdeal.Network

open Cert.KernelIdeal Cert.KernelIdeal.Gen
open Idealize.ShloMosaic Idealize.ShloMosaic.TcCoe Idealize.SL.Sem
open Cert.Bridge.ChebRow Cert.ReferenceIdeal.Layers

variable (m : (ℓ : Loc nD τ sig) → Buf (Elt Ideal) ℓ) (ρ : Dev nD → PrngReg) (c : Dev nD)

/-- The first region leaves the first hidden array: the layer of the input features and their two propagated forms. -/
theorem first_hidden : W4 m ρ c (Proc.devRef .tc main_v55)
    = chebLayer (n := 100000) (K := 1) (N := 32) (m ((c : Thread nD τ).loc main_arg0))
        (spread1 (m ((c : Thread nD τ).loc main_arg1)) (m ((c : Thread nD τ).loc main_arg0)))
        (spread1 (m ((c : Thread nD τ).loc main_arg1)) (spread1 (m ((c : Thread nD τ).loc main_arg1)) (m ((c : Thread nD τ).loc main_arg0))))
        (m ((c : Thread nD τ).loc main_arg2)) (m ((c : Thread nD τ).loc main_arg3)) := by
  refine (W4_arr m ρ c 5).trans ?_
  rw [Layer1.final]
  show chebLayer (n := 100000) (K := 1) (N := 32) (W3 m ρ c (Proc.devRef .tc main_arg0)) (W3 m ρ c (Proc.devRef .tc main_v42))
      (W3 m ρ c (Proc.devRef .tc main_v54)) (W3 m ρ c (Proc.devRef .tc main_arg2)) (W3 m ρ c (Proc.devRef .tc main_arg3)) = _
  rw [HostSide.once1, HostSide.twice1, HostSide.kept_main_arg0, HostSide.kept_main_arg2, HostSide.kept_main_arg3]

/-- The result array ends holding the network of the launch arguments. -/
theorem result : W6 m ρ c (Proc.devRef .tc main_v82)
    = model (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (W6_arr m ρ c 7).trans ?_
  rw [Layer2.final]
  show project (n := 100000) (K := 32) (N := 1)
      (chebLayer (n := 100000) (K := 32) (N := 32) (W5 m ρ c (Proc.devRef .tc main_v55)) (W5 m ρ c (Proc.devRef .tc main_v68))
        (W5 m ρ c (Proc.devRef .tc main_v81)) (W5 m ρ c (Proc.devRef .tc main_arg4)) (W5 m ρ c (Proc.devRef .tc main_arg5)))
      (W5 m ρ c (Proc.devRef .tc main_arg6)) (W5 m ρ c (Proc.devRef .tc main_arg7)) = _
  rw [HostSide.once32, HostSide.twice32, HostSide.hidden_kept, first_hidden, HostSide.launched4, HostSide.launched5,
    HostSide.launched6, HostSide.launched7]
  rfl

end Cert.KernelIdeal.Network

end
-- ==== Proof.lean ====
/-
  Two layers of Chebyshev graph convolution (order three, symmetric normalisation, 100000 nodes, 2000000 edges) with a final
  projection: a program that fuses each layer's dense part — three matrix products, the bias, the rectifier, and for the
  second layer the projection — into a pipelined region over twenty blocks of 5000 nodes, against a reference that computes
  the same network with whole-array host operations. Both leave the sparse propagation (gather at the edges' source nodes,
  scale by the edge weight, add into the target nodes) to the same host operations on the same edge list.

  On the extended reals the two programs compute one function of the eight arguments (`Layers.model`): a layer's entry
  depends on one row of its three feature arrays, so the region's blocks are the rows of the whole-array layer; narrowing
  a product's operands to bf16 changes nothing there; and the three products, the bias and the maximum are taken in the
  same order on both sides, so no law of arithmetic is needed beyond reading each product as its sum, and the inputs'
  finiteness is never used. The propagation steps are one function of the edge list and an array on both sides and are
  never opened. The kernel's run and value: KernelRun, Layer1Value, Layer2Value, KernelHost, KernelValue. The reference's:
  RefRun, RefRead (its run and its stages, read back), RefLayers. The programs' stated side conditions are witnessed by
  the facts proved beside each program. The idealization rewrote no operation, so what it preserves is vacuous.
-/
import proofs.«169452_j7576322310704_1_alg».proof.Defs
import proofs.«169452_j7576322310704_1_alg».proof.Proof.Gen.Kernel
import proofs.«169452_j7576322310704_1_alg».proof.Proof.Gen.Kernel.Skeleton
import proofs.«169452_j7576322310704_1_alg».proof.Proof.Gen.Kernel.Launch
import proofs.«169452_j7576322310704_1_alg».proof.Proof.Gen.Kernel.Points
import proofs.«169452_j7576322310704_1_alg».proof.Proof.Gen.Kernel.Frame
import proofs.«169452_j7576322310704_1_alg».proof.Proof.Gen.KernelIdeal
import proofs.«169452_j7576322310704_1_alg».proof.Proof.Gen.KernelIdeal.Skeleton
import proofs.«169452_j7576322310704_1_alg».proof.Proof.Gen.KernelIdeal.Launch
import proofs.«169452_j7576322310704_1_alg».proof.Proof.Gen.KernelIdeal.Points
import proofs.«169452_j7576322310704_1_alg».proof.Proof.Gen.KernelIdeal.Frame
import proofs.«169452_j7576322310704_1_alg».proof.Proof.Gen.ReferenceIdeal
import proofs.«169452_j7576322310704_1_alg».proof.Proof.Gen.Pre_finite_inputs
import proofs.«169452_j7576322310704_1_alg».proof.Proof.KernelValue
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Gen.frame m ρ

/-- So does the idealized program. -/
theorem frame_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the network of those arguments in their result. -/
theorem algebraic : Cert.algebraic_KernelIdeal_ReferenceIdeal := by
  intro m ρ m' ρ' _ hagree
  refine ⟨fun c => Cert.ReferenceIdeal.Layers.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Network.result m ρ c), (h c).2⟩)
      (Cert.KernelIdeal.RunValue.run_main (F := Ideal) m ρ)
  · refine (θ_run Cert.ReferenceIdeal.defs _ _).mono (fun _ h c => ⟨?_, (h c).2⟩) (Cert.ReferenceIdeal.ValueP.run (F := Ideal) m' ρ')
    refine (h c).1.trans ((Cert.ReferenceIdeal.ReadP.val_main_v120_eq m' c).trans ((Cert.ReferenceIdeal.Layers.result_model _ _ _ _ _ _ _ _).trans ?_))
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
